-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S100000x4x256 : Shape := ⟨3, ![100000, 4, 256]⟩
abbrev S256x256 : Shape := ⟨2, ![256, 256]⟩
abbrev S256 : Shape := ⟨1, ![256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S100000x4x256 : S_.BroadcastsInDim S100000x4x256 (![] : Fin 0 → Fin S100000x4x256.rank)
  reducesTo_S100000x4x256_S_d0_1_2 : S100000x4x256.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part4 {F : FTy → Type} [FloatOps F] (main_arg14 : FVec F S256x256 .f32) (main_v63 : IVec S_ 1) (main_v67 : IVec S_ 1) : IVec S_ 1 :=
  let main_v68 : IVec S_ 1 := andi main_v63 main_v67
  let main_v69 : FVec F S256x256 .f32 := Host.absf main_arg14
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  main_v73

def fn_part3 {F : FTy → Type} [FloatOps F] (main_arg11 : FVec F S256x256 .f32) (main_arg12 : FVec F S256x256 .f32) (main_arg13 : FVec F S256x256 .f32) (main_arg14 : FVec F S256x256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg11
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256x256 .f32 := Host.absf main_arg12
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256x256 .f32 := Host.absf main_arg13
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg14 main_v63 main_v67

def fn_part2 {F : FTy → Type} [FloatOps F] (main_arg7 : FVec F S256x256 .f32) (main_arg8 : FVec F S256 .f32) (main_arg9 : FVec F S256x256 .f32) (main_arg10 : FVec F S256 .f32) (main_arg11 : FVec F S256x256 .f32) (main_arg12 : FVec F S256x256 .f32) (main_arg13 : FVec F S256x256 .f32) (main_arg14 : FVec F S256x256 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_v48 main_v49 main_v50

def fn_part1 {F : FTy → Type} [FloatOps F] (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256x256 .f32) (main_arg12 : FVec F S256x256 .f32) (main_arg13 : FVec F S256x256 .f32) (main_arg14 : FVec F S256x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S100000x256 .f32) (main_arg1 : FVec F S100000x4x256 .f32) (main_arg2 : FVec F S100000x4x256 .f32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256x256 .f32) (main_arg12 : FVec F S256x256 .f32) (main_arg13 : FVec F S256x256 .f32) (main_arg14 : FVec F S256x256 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000x4x256 .f32 := Host.absf main_arg1
  let main_cst_0 : FVec F S_ .f32 := constant S_ .f32 0x7F800000#32
  let main_v5 : FVec F S100000x4x256 .f32 := broadcastInDim S100000x4x256 ![] bcast_S_S100000x4x256 main_cst_0
  let main_v6 : IVec S100000x4x256 1 := cmpf .olt main_v4 main_v5
  let main_c_1 : IVec S_ 1 := constantI S_ 1 1#1
  let main_v7 : IVec S_ 1 := (fun x v => Host.reduce IntOp.andi x v reducesTo_S100000x4x256_S_d0_1_2 h_S_) main_v6 main_c_1
  let main_v8 : IVec S_ 1 := andi main_v3 main_v7
  let main_v9 : FVec F S100000x4x256 .f32 := Host.absf main_arg2
  let main_cst_2 : FVec F S_ .f32 := constant S_ .f32 0x7F800000#32
  let main_v10 : FVec F S100000x4x256 .f32 := broadcastInDim S100000x4x256 ![] bcast_S_S100000x4x256 main_cst_2
  let main_v11 : IVec S100000x4x256 1 := cmpf .olt main_v9 main_v10
  let main_c_3 : IVec S_ 1 := constantI S_ 1 1#1
  let main_v12 : IVec S_ 1 := (fun x v => Host.reduce IntOp.andi x v reducesTo_S100000x4x256_S_d0_1_2 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S100000x256 : Shape := ⟨2, ![100000, 256]⟩
abbrev S100000x4x256 : Shape := ⟨3, ![100000, 4, 256]⟩
abbrev S256x256 : Shape := ⟨2, ![256, 256]⟩
abbrev S256 : Shape := ⟨1, ![256]⟩
abbrev S100000x1024 : Shape := ⟨2, ![100000, 1024]⟩
abbrev S1024x256 : Shape := ⟨2, ![1024, 256]⟩
abbrev S256x1024 : Shape := ⟨2, ![256, 1024]⟩
abbrev S768x256 : Shape := ⟨2, ![768, 256]⟩
abbrev S256x768 : Shape := ⟨2, ![256, 768]⟩
abbrev S800x256 : Shape := ⟨2, ![800, 256]⟩
abbrev S800x1024 : Shape := ⟨2, ![800, 1024]⟩
abbrev S800x768 : Shape := ⟨2, ![800, 768]⟩
abbrev S1x256 : Shape := ⟨2, ![1, 256]⟩

abbrev nBuf : Space → Nat
  | .hbm => 27
  | .vmem => 17
  | .smem => 0
  | _ => 0

abbrev bufTy : (tb : Table) → Fin (tcTables nBuf tb) → BufTy
  | .hbm, ⟨0, _⟩ => ⟨S100000x256, .f32⟩
  | .hbm, ⟨1, _⟩ => ⟨S100000x4x256, .f32⟩
  | .hbm, ⟨2, _⟩ => ⟨S100000x4x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S100000x1024, .f32⟩
  | .hbm, ⟨16, _⟩ => ⟨S100000x1024, .f32⟩
  | .hbm, ⟨17, _⟩ => ⟨S1024x256, .f32⟩
  | .hbm, ⟨18, _⟩ => ⟨S256x1024, .f32⟩
  | .hbm, ⟨19, _⟩ => ⟨S256x1024, .bf16⟩
  | .hbm, ⟨20, _⟩ => ⟨S768x256, .f32⟩
  | .hbm, ⟨21, _⟩ => ⟨S256x768, .f32⟩
  | .hbm, ⟨22, _⟩ => ⟨S256x768, .bf16⟩
  | .hbm, ⟨23, _⟩ => ⟨S256x256, .f32⟩
  | .hbm, ⟨24, _⟩ => ⟨S256x256, .bf16⟩
  | .hbm, ⟨25, _⟩ => ⟨S100000x256, .f32⟩
  | .hbm, ⟨26, _⟩ => ⟨S100000x256, .f32⟩
  | .local _ .vmem, ⟨0, _⟩ => ⟨S800x256, .f32⟩
  | .local _ .vmem, ⟨1, _⟩ => ⟨S800x256, .f32⟩
  | .local _ .vmem, ⟨2, _⟩ => ⟨S800x1024, .f32⟩
  | .local _ .vmem, ⟨3, _⟩ => ⟨S800x1024, .f32⟩
  | .local _ .vmem, ⟨4, _⟩ => ⟨S800x1024, .f32⟩
  | .local _ .vmem, ⟨5, _⟩ => ⟨S800x1024, .f32⟩
  | .local _ .vmem, ⟨6, _⟩ => ⟨S256x1024, .bf16⟩
  | .local _ .vmem, ⟨7, _⟩ => ⟨S256x768, .bf16⟩
  | .local _ .vmem, ⟨8, _⟩ => ⟨S256x256, .bf16⟩
  | .local _ .vmem, ⟨9, _⟩ => ⟨S256, .f32⟩
  | .local _ .vmem, ⟨10, _⟩ => ⟨S256, .f32⟩
  | .local _ .vmem, ⟨11, _⟩ => ⟨S256, .f32⟩
  | .local _ .vmem, ⟨12, _⟩ => ⟨S256, .f32⟩
  | .local _ .vmem, ⟨13, _⟩ => ⟨S800x256, .f32⟩
  | .local _ .vmem, ⟨14, _⟩ => ⟨S800x256, .f32⟩
  | .local _ .vmem, ⟨15, _⟩ => ⟨S800x256, .f32⟩
  | .local _ .vmem, ⟨16, _⟩ => ⟨S800x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10_0 : Ref sig .tc := ⟨.hbm, 25, rfl⟩
abbrev main_v10_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S800x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S800x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S800x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S800x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S800x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S100000x4x256_S100000x1024 : S100000x4x256.ShapeCasts S100000x1024
  concatenates_S256x256_S256x256_S256x256_S256x256_S1024x256_d0 : Shape.Concatenates [S256x256, S256x256, S256x256, S256x256] S1024x256 0
  transposes_S1024x256_S256x1024_1_0 : S1024x256.Transposes [1, 0] S256x1024
  bitsLt_bf16_f32 : FTy.bits .bf16 < FTy.bits .f32
  concatenates_S256x256_S256x256_S256x256_S768x256_d0 : Shape.Concatenates [S256x256, S256x256, S256x256] S768x256 0
  transposes_S768x256_S256x768_1_0 : S768x256.Transposes [1, 0] S256x768
  transposes_S256x256_S256x256_1_0 : S256x256.Transposes [1, 0] S256x256
  inb_S800x256_S800x256_0_0 : ∀ a, (![0, 0] : Fin 2 → Nat) a + S800x256.size a ≤ S800x256.size a
  h_S800x256 : 0 < S800x256.numel
  inb_S800x1024_S800x1024_0_0 : ∀ a, (![0, 0] : Fin 2 → Nat) a + S800x1024.size a ≤ S800x1024.size a
  h_S800x1024 : 0 < S800x1024.numel
  shapeCasts_S800x1024_S800x1024 : S800x1024.ShapeCasts S800x1024
  slices_S800x1024_o0_0_S800x256 : S800x1024.Slices ![0, 0] S800x256
  slices_S800x1024_o0_256_S800x256 : S800x1024.Slices ![0, 256] S800x256
  slices_S800x1024_o0_512_S800x256 : S800x1024.Slices ![0, 512] S800x256
  slices_S800x1024_o0_768_S800x256 : S800x1024.Slices ![0, 768] S800x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S800x768_o0_0_S800x256 : S800x768.Slices ![0, 0] S800x256
  slices_S800x768_o0_256_S800x256 : S800x768.Slices ![0, 256] S800x256
  slices_S800x768_o0_512_S800x256 : S800x768.Slices ![0, 512] S800x256
  inb_S256_S256_0 : ∀ a, (![0] : Fin 1 → Nat) a + S256.size a ≤ S256.size a
  h_S256 : 0 < S256.numel
  shapeCasts_S256_S1x256 : S256.ShapeCasts S1x256
  broadcasts_S1x256_S800x256 : S1x256.Broadcasts S800x256
  dot_S800x256_S256x1024_S800x1024_1_0_0_1_n_n_wf : DotDims.WF S800x256 S256x1024 S800x1024 [1] [0] [0] [1] [] []
  dot_S800x256_S256x768_S800x768_1_0_0_1_n_n_wf : DotDims.WF S800x256 S256x768 S800x768 [1] [0] [0] [1] [] []
  dot_S800x256_S256x256_S800x256_1_0_0_1_n_n_wf : DotDims.WF S800x256 S256x256 S800x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S800x256.size a ≤ S100000x256.size a
  hwx0_0 : ∀ i : grid0.Coords, EltTy.bits .f32 = 32 ∨ (Rect.block (s := S100000x256) S800x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S800x1024.size a ≤ S100000x1024.size a
  hwx0_1 : ∀ i : grid0.Coords, EltTy.bits .f32 = 32 ∨ (Rect.block (s := S100000x1024) S800x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S800x1024.size a ≤ S100000x1024.size a
  hwx0_2 : ∀ i : grid0.Coords, EltTy.bits .f32 = 32 ∨ (Rect.block (s := S100000x1024) S800x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S256x1024.size a
  hwx0_3 : ∀ i : grid0.Coords, EltTy.bits .bf16 = 32 ∨ (Rect.block (s := S256x1024) S256x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x768.size a ≤ S256x768.size a
  hwx0_4 : ∀ i : grid0.Coords, EltTy.bits .bf16 = 32 ∨ (Rect.block (s := S256x768) S256x768.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S256.size a
  hwx0_9 : ∀ i : grid0.Coords, EltTy.bits .f32 = 32 ∨ (Rect.block (s := S256) S256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S800x256.size a ≤ S100000x256.size a
  hwx0_10 : ∀ i : grid0.Coords, EltTy.bits .f32 = 32 ∨ (Rect.block (s := S100000x256) S800x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S800x256.size a ≤ S100000x256.size a
  hwx0_11 : ∀ i : grid0.Coords, EltTy.bits .f32 = 32 ∨ (Rect.block (s := S100000x256) S800x256.size (cc0_transform_11 i) (hinb0_11 i)).WholeWords (EltTy.packing .f32)

variable [Facts₀]

def dot_S800x256_S256x1024_S800x1024_1_0_0_1_n_n : DotDims S800x256 S256x1024 S800x1024 where
  lhsContracting := [1]
  rhsContracting := [0]
  lhsNonContracting := [0]
  rhsNonContracting := [1]
  lhsBatch := []
  rhsBatch := []
  wf := dot_S800x256_S256x1024_S800x1024_1_0_0_1_n_n_wf
def dot_S800x256_S256x768_S800x768_1_0_0_1_n_n : DotDims S800x256 S256x768 S800x768 where
  lhsContracting := [1]
  rhsContracting := [0]
  lhsNonContracting := [0]
  rhsNonContracting := [1]
  lhsBatch := []
  rhsBatch := []
  wf := dot_S800x256_S256x768_S800x768_1_0_0_1_n_n_wf
def dot_S800x256_S256x256_S800x256_1_0_0_1_n_n : DotDims S800x256 S256x256 S800x256 where
  lhsContracting := [1]
  rhsContracting := [0]
  lhsNonContracting := [0]
  rhsNonContracting := [1]
  lhsBatch := []
  rhsBatch := []
  wf := dot_S800x256_S256x256_S800x256_1_0_0_1_n_n_wf

abbrev win0_0 : Pipeline.Window sig grid0 :=
  Pipeline.Window.ofSpec (Memref.whole main_arg0) S800x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S800x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S800x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S256x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10_0) S800x256.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v10_1) S800x256.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S100000x256 : Shape := ⟨2, ![100000, 256]⟩
abbrev S100000x4x256 : Shape := ⟨3, ![100000, 4, 256]⟩
abbrev S256x256 : Shape := ⟨2, ![256, 256]⟩
abbrev S256 : Shape := ⟨1, ![256]⟩
abbrev S_ : Shape := ⟨0, ![]⟩
abbrev S1x256 : Shape := ⟨2, ![1, 256]⟩
abbrev S100000x1x256 : Shape := ⟨3, ![100000, 1, 256]⟩

abbrev nBuf : Space → Nat
  | .hbm => 82
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S100000x4x256, .f32⟩
  | .hbm, ⟨2, _⟩ => ⟨S100000x4x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S_, .f32⟩
  | .hbm, ⟨16, _⟩ => ⟨S100000x256, .f32⟩
  | .hbm, ⟨17, _⟩ => ⟨S256x256, .f32⟩
  | .hbm, ⟨18, _⟩ => ⟨S100000x256, .f32⟩
  | .hbm, ⟨19, _⟩ => ⟨S1x256, .f32⟩
  | .hbm, ⟨20, _⟩ => ⟨S100000x256, .f32⟩
  | .hbm, ⟨21, _⟩ => ⟨S100000x256, .f32⟩
  | .hbm, ⟨22, _⟩ => ⟨S256x256, .f32⟩
  | .hbm, ⟨23, _⟩ => ⟨S100000x256, .f32⟩
  | .hbm, ⟨24, _⟩ => ⟨S100000x256, .f32⟩
  | .hbm, ⟨25, _⟩ => ⟨S100000x256, .f32⟩
  | .hbm, ⟨26, _⟩ => ⟨S100000x256, .f32⟩
  | .hbm, ⟨27, _⟩ => ⟨S_, .f32⟩
  | .hbm, ⟨28, _⟩ => ⟨S100000x256, .f32⟩
  | .hbm, ⟨29, _⟩ => ⟨S100000x256, .f32⟩
  | .hbm, ⟨30, _⟩ => ⟨S_, .f32⟩
  | .hbm, ⟨31, _⟩ => ⟨S100000x256, .f32⟩
  | .hbm, ⟨32, _⟩ => ⟨S100000x256, .f32⟩
  | .hbm, ⟨33, _⟩ => ⟨S256x256, .f32⟩
  | .hbm, ⟨34, _⟩ => ⟨S100000x256, .f32⟩
  | .hbm, ⟨35, _⟩ => ⟨S1x256, .f32⟩
  | .hbm, ⟨36, _⟩ => ⟨S100000x256, .f32⟩
  | .hbm, ⟨37, _⟩ => ⟨S100000x256, .f32⟩
  | .hbm, ⟨38, _⟩ => ⟨S256x256, .f32⟩
  | .hbm, ⟨39, _⟩ => ⟨S100000x256, .f32⟩
  | .hbm, ⟨40, _⟩ => ⟨S100000x256, .f32⟩
  | .hbm, ⟨41, _⟩ => ⟨S100000x256, .f32⟩
  | .hbm, ⟨42, _⟩ => ⟨S100000x256, .f32⟩
  | .hbm, ⟨43, _⟩ => ⟨S_, .f32⟩
  | .hbm, ⟨44, _⟩ => ⟨S100000x256, .f32⟩
  | .hbm, ⟨45, _⟩ => ⟨S100000x256, .f32⟩
  | .hbm, ⟨46, _⟩ => ⟨S_, .f32⟩
  | .hbm, ⟨47, _⟩ => ⟨S100000x256, .f32⟩
  | .hbm, ⟨48, _⟩ => ⟨S100000x256, .f32⟩
  | .hbm, ⟨49, _⟩ => ⟨S256x256, .f32⟩
  | .hbm, ⟨50, _⟩ => ⟨S100000x256, .f32⟩
  | .hbm, ⟨51, _⟩ => ⟨S1x256, .f32⟩
  | .hbm, ⟨52, _⟩ => ⟨S100000x256, .f32⟩
  | .hbm, ⟨53, _⟩ => ⟨S100000x256, .f32⟩
  | .hbm, ⟨54, _⟩ => ⟨S256x256, .f32⟩
  | .hbm, ⟨55, _⟩ => ⟨S100000x256, .f32⟩
  | .hbm, ⟨56, _⟩ => ⟨S100000x256, .f32⟩
  | .hbm, ⟨57, _⟩ => ⟨S100000x256, .f32⟩
  | .hbm, ⟨58, _⟩ => ⟨S256x256, .f32⟩
  | .hbm, ⟨59, _⟩ => ⟨S100000x256, .f32⟩
  | .hbm, ⟨60, _⟩ => ⟨S1x256, .f32⟩
  | .hbm, ⟨61, _⟩ => ⟨S100000x256, .f32⟩
  | .hbm, ⟨62, _⟩ => ⟨S100000x256, .f32⟩
  | .hbm, ⟨63, _⟩ => ⟨S100000x1x256, .f32⟩
  | .hbm, ⟨64, _⟩ => ⟨S100000x4x256, .f32⟩
  | .hbm, ⟨65, _⟩ => ⟨S100000x4x256, .f32⟩
  | .hbm, ⟨66, _⟩ => ⟨S100000x4x256, .f32⟩
  | .hbm, ⟨67, _⟩ => ⟨S100000x4x256, .f32⟩
  | .hbm, ⟨68, _⟩ => ⟨S100000x4x256, .f32⟩
  | .hbm, ⟨69, _⟩ => ⟨S_, .f32⟩
  | .hbm, ⟨70, _⟩ => ⟨S100000x4x256, .f32⟩
  | .hbm, ⟨71, _⟩ => ⟨S100000x4x256, .f32⟩
  | .hbm, ⟨72, _⟩ => ⟨S_, .f32⟩
  | .hbm, ⟨73, _⟩ => ⟨S100000x4x256, .f32⟩
  | .hbm, ⟨74, _⟩ => ⟨S100000x4x256, .f32⟩
  | .hbm, ⟨75, _⟩ => ⟨S100000x256, .f32⟩
  | .hbm, ⟨76, _⟩ => ⟨S100000x4x256, .f32⟩
  | .hbm, ⟨77, _⟩ => ⟨S_, .f32⟩
  | .hbm, ⟨78, _⟩ => ⟨S100000x256, .f32⟩
  | .hbm, ⟨79, _⟩ => ⟨S100000x256, .f32⟩
  | .hbm, ⟨80, _⟩ => ⟨S100000x256, .f32⟩
  | .hbm, ⟨81, _⟩ => ⟨S100000x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_0 : Ref sig .tc := ⟨.hbm, 27, rfl⟩
abbrev main_v11 : Ref sig .tc := ⟨.hbm, 28, rfl⟩
abbrev main_v12 : Ref sig .tc := ⟨.hbm, 29, rfl⟩
abbrev main_cst_1 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_4 : Ref sig .tc := ⟨.hbm, 69, rfl⟩
abbrev main_v49 : Ref sig .tc := ⟨.hbm, 70, rfl⟩
abbrev main_v50 : Ref sig .tc := ⟨.hbm, 71, rfl⟩
abbrev main_cst_5 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_6 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩

abbrev nD : Nat := 1
abbrev τ : Topo := Topo.v7x

variable {F : FTy → Type} [FloatOps F]

class Facts₀ : Prop where
  reducesTo_S100000x4x256_S100000x256_d1 : S100000x4x256.ReducesTo [1] S100000x256
  h_S_ : 0 < S_.numel
  transposes_S256x256_S256x256_1_0 : S256x256.Transposes [1, 0] S256x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S100000x256_S100000x1x256_0_2 : S100000x256.BroadcastsInDim S100000x1x256 (![0, 2] : Fin 2 → Fin S100000x1x256.rank)
  bcast_S100000x1x256_S100000x4x256_0_1_2 : S100000x1x256.BroadcastsInDim S100000x4x256 (![0, 1, 2] : Fin 3 → Fin S100000x4x256.rank)
  bcast_S_S100000x4x256 : S_.BroadcastsInDim S100000x4x256 (![] : Fin 0 → Fin S100000x4x256.rank)
  dot_S100000x256_S256x256_S100000x256_1_0_0_1_n_n_wf : DotDims.WF S100000x256 S256x256 S100000x256 [1] [0] [0] [1] [] []
  dot_S100000x4x256_S256x256_S100000x4x256_2_1_01_0_n_n_wf : DotDims.WF S100000x4x256 S256x256 S100000x4x256 [2] [1] [0, 1] [0] [] []

variable [Facts₀]

def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x4x256_S256x256_S100000x4x256_2_1_01_0_n_n : DotDims S100000x4x256 S256x256 S100000x4x256 where
  lhsContracting := [2]
  rhsContracting := [1]
  lhsNonContracting := [0, 1]
  rhsNonContracting := [0]
  lhsBatch := []
  rhsBatch := []
  wf := dot_S100000x4x256_S256x256_S100000x4x256_2_1_01_0_n_n_wf

class Facts : Prop extends Facts₀ where

variable [Facts]
-- ==== Proof.BitsFrame.lean ====
/-
  The child-sum tree-LSTM cell as one pipelined region over 125 blocks of 800 nodes: that the program runs to its end
  and what it leaves.  Before the region the host lays the two child arrays out flat (node by child·feature), stacks
  the four input-weight matrices and the three hidden-weight matrices, and transposes them; the region then, at block
  `t`, reads rows 800·t … 800·t+799 of the node features and of the flattened child states and the whole of the
  weights and biases, and writes rows 800·t … 800·t+799 of the hidden and the cell output.
  Stated here for either reading of the numbers: the arrays as the region finds them; that no argument array is
  written before the region; each window's block at a point; what the body leaves in the two output blocks as a
  function of the ten input blocks; the body's Hoare triple; and the run of the whole program, with the arguments
  unchanged at the end.
-/
import proofs.«126556_j63917703299457_2_alg».proof.Proof.Gen.Kernel.Launch
import proofs.«126556_j63917703299457_2_alg».proof.Proof.Gen.Kernel.Skeleton
import proofs.«126556_j63917703299457_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- Every buffer of the core after the ten host operations that precede the region: the two flattenings, the two
    stackings, the three transposes and the three changes of format, applied in order to the launch contents. -/
abbrev atEntry (c : Dev nD) (b : Ref sig .tc) : Buf (Elt F) ((c : Thread nD τ).loc b) :=
  StableHlo.after hostOps0 (fun b => m (c, b)) b

/-- None of those operations allocates. -/
theorem hostOps0_fresh : (hostOps0 : List (HloOp τ sig (Elt F))).Forall fun op => op.fresh = ∅ := by
  simp only [List.Forall]; repeat' constructor

/-- The program is those operations followed by the region. -/
theorem entry_main (𝒱₀ : Variants) :
    Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub hostOps0_fresh main_chain

/-- The ten arrays the host operations write: each writes one, its result. -/
abbrev hostWritten : List (Ref sig .tc) :=
  [main_v0, main_v1, main_v2, main_v3, main_v4, main_v5, main_v6, main_v7, main_v8, main_v9]

/-- An array that is none of those ten results is found by the region as it was launched. -/
theorem kept (c : Dev nD) (r : Ref sig .tc) (hr : r ∉ hostWritten) : atEntry m c r = m ((c : Thread nD τ).loc r) := by
  simp only [hostWritten, List.mem_cons, List.not_mem_nil, or_false, not_or] at hr
  obtain ⟨h0, h1, h2, h3, h4, h5, h6, h7, h8, h9⟩ := hr
  refine StableHlo.after_of_forall_not_mem (b := Proc.devRef .tc r) _ _ (List.forall_iff_forall_mem.mp ?_)
  simp only [hostOps0, List.Forall, StableHlo.unary_writes, StableHlo.reshape_writes, StableHlo.nary_writes, Finset.mem_singleton]
  exact ⟨StableHlo.devRef_ne_of_ne h0, StableHlo.devRef_ne_of_ne h1, StableHlo.devRef_ne_of_ne h2, StableHlo.devRef_ne_of_ne h3,
    StableHlo.devRef_ne_of_ne h4, StableHlo.devRef_ne_of_ne h5, StableHlo.devRef_ne_of_ne h6, StableHlo.devRef_ne_of_ne h7,
    StableHlo.devRef_ne_of_ne h8, StableHlo.devRef_ne_of_ne h9⟩

/-! ## The windows' blocks -/

/-- Window `w`'s block at point `t`, cut out of its array as the region finds it: for the three streamed inputs rows
    800·t … 800·t+799, for the weights and the biases the whole array. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- Input window 0's staging buffer holds its block at every point, whether or not the point fetched it (a window
    whose block index has not moved is not fetched again and still holds the block), for any proof data whose array is
    the region-entry array and whose body leaves the block in place. -/
theorem staged0_of {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Input window 1's staging buffer holds its block at every point, whether or not the point fetched it (a window
    whose block index has not moved is not fetched again and still holds the block), for any proof data whose array is
    the region-entry array and whose body leaves the block in place. -/
theorem staged1_of {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Input window 2's staging buffer holds its block at every point, whether or not the point fetched it (a window
    whose block index has not moved is not fetched again and still holds the block), for any proof data whose array is
    the region-entry array and whose body leaves the block in place. -/
theorem staged2_of {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- Input window 3's staging buffer holds its block at every point, whether or not the point fetched it (a window
    whose block index has not moved is not fetched again and still holds the block), for any proof data whose array is
    the region-entry array and whose body leaves the block in place. -/
theorem staged3_of {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
/-- Input window 4's staging buffer holds its block at every point, whether or not the point fetched it (a window
    whose block index has not moved is not fetched again and still holds the block), for any proof data whose array is
    the region-entry array and whose body leaves the block in place. -/
theorem staged4_of {c : Dev nD} (dat : Dat τ (Elt F) Unit ℕ (UR sig nD τ) ℕ cfg0 c) (hA : dat.A 4 = atEntry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
/-- Input window 5's staging buffer holds its block at every point, whether or not the point fetched it (a window
    whose block index has not moved is not fetched again and still holds the block), for any proof data whose array is
    the region-entry array and whose body leaves the block in place. -/
theorem staged5_of {c : Dev nD} (dat : Dat τ (Elt F) Unit ℕ (UR sig nD τ) ℕ cfg0 c) (hA : dat.A 5 = atEntry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
/-- Input window 6's staging buffer holds its block at every point, whether or not the point fetched it (a window
    whose block index has not moved is not fetched again and still holds the block), for any proof data whose array is
    the region-entry array and whose body leaves the block in place. -/
theorem staged6_of {c : Dev nD} (dat : Dat τ (Elt F) Unit ℕ (UR sig nD τ) ℕ cfg0 c) (hA : dat.A 6 = atEntry m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)
/-- Input window 7's staging buffer holds its block at every point, whether or not the point fetched it (a window
    whose block index has not moved is not fetched again and still holds the block), for any proof data whose array is
    the region-entry array and whose body leaves the block in place. -/
theorem staged7_of {c : Dev nD} (dat : Dat τ (Elt F) Unit ℕ (UR sig nD τ) ℕ cfg0 c) (hA : dat.A 7 = atEntry m c (Pipeline.arrRef spec0 7))
    (hafter : ∀ t, dat.after 7 t = blockAt m c 7 t) (t : Fin cfg0.N) (d) : dat.before 7 t d = blockAt m c 7 t :=
  (dat.before_in_eq_fetched 7 rfl (fun _ => rfl) (fun _ _ _ => rfl) (fun t => by rw [hafter]; unfold Dat.blockOf blockAt; rw [hA]; try rfl) t d).trans
    (by unfold Dat.fetched Dat.blockOf blockAt; rw [hA]; try rfl)
/-- Input window 8's staging buffer holds its block at every point, whether or not the point fetched it (a window
    whose block index has not moved is not fetched again and still holds the block), for any proof data whose array is
    the region-entry array and whose body leaves the block in place. -/
theorem staged8_of {c : Dev nD} (dat : Dat τ (Elt F) Unit ℕ (UR sig nD τ) ℕ cfg0 c) (hA : dat.A 8 = atEntry m c (Pipeline.arrRef spec0 8))
    (hafter : ∀ t, dat.after 8 t = blockAt m c 8 t) (t : Fin cfg0.N) (d) : dat.before 8 t d = blockAt m c 8 t :=
  (dat.before_in_eq_fetched 8 rfl (fun _ => rfl) (fun _ _ _ => rfl) (fun t => by rw [hafter]; unfold Dat.blockOf blockAt; rw [hA]; try rfl) t d).trans
    (by unfold Dat.fetched Dat.blockOf blockAt; rw [hA]; try rfl)
/-- Input window 9's staging buffer holds its block at every point, whether or not the point fetched it (a window
    whose block index has not moved is not fetched again and still holds the block), for any proof data whose array is
    the region-entry array and whose body leaves the block in place. -/
theorem staged9_of {c : Dev nD} (dat : Dat τ (Elt F) Unit ℕ (UR sig nD τ) ℕ cfg0 c) (hA : dat.A 9 = atEntry m c (Pipeline.arrRef spec0 9))
    (hafter : ∀ t, dat.after 9 t = blockAt m c 9 t) (t : Fin cfg0.N) (d) : dat.before 9 t d = blockAt m c 9 t :=
  (dat.before_in_eq_fetched 9 rfl (fun _ => rfl) (fun _ _ _ => rfl) (fun t => by rw [hafter]; unfold Dat.blockOf blockAt; rw [hA]; try rfl) t d).trans
    (by unfold Dat.fetched Dat.blockOf blockAt; rw [hA]; try rfl)

/-! ## The body's accesses: every load and both stores take the whole of a staging buffer -/

abbrev r800x256 : Rect S800x256 := Rect.unit (s := S800x256) ![0, 0] S800x256.size inb_S800x256_S800x256_0_0
abbrev r800x1024 : Rect S800x1024 := Rect.unit (s := S800x1024) ![0, 0] S800x1024.size inb_S800x1024_S800x1024_0_0
abbrev r256x1024 : Rect S256x1024 := Rect.unit (s := S256x1024) ![0, 0] S256x1024.size inb_S256x1024_S256x1024_0_0
abbrev r256x768 : Rect S256x768 := Rect.unit (s := S256x768) ![0, 0] S256x768.size inb_S256x768_S256x768_0_0
abbrev r256x256 : Rect S256x256 := Rect.unit (s := S256x256) ![0, 0] S256x256.size inb_S256x256_S256x256_0_0
abbrev r256 : Rect S256 := Rect.unit (s := S256) ![0] S256.size inb_S256_S256_0

/-! ## What the body leaves in the two output blocks -/

/-- The hidden-state block after the body, from the ten input blocks: its one store, of the output gate times the
    hyperbolic tangent of the new cell state. -/
def hiddenOut (x0 : Vec F S800x256 .f32) (x1 : Vec F S800x1024 .f32) (x2 : Vec F S800x1024 .f32) (x3 : Vec F S256x1024 .bf16) (x4 : Vec F S256x768 .bf16) (x5 : Vec F S256x256 .bf16) (x6 : Vec F S256 .f32) (x7 : Vec F S256 .f32) (x8 : Vec F S256 .f32) (x9 : Vec F S256 .f32) : Vec F S800x256 .f32 :=
  View.canon [⟨r800x256, k0_pay2 (k0_pay3 (View.ld x1 r800x1024)) (k0_pay4 (View.ld x2 r800x1024)) (k0_pay5 (View.ld x5 r256x256)) (k0_pay8 (View.ld x0 r800x256) (View.ld x3 r256x1024)) (k0_pay9 (View.ld x0 r800x256) (View.ld x3 r256x1024)) (k0_pay10 (View.ld x1 r800x1024) (View.ld x4 r256x768)) (k0_pay11 (View.ld x1 r800x1024) (View.ld x4 r256x768)) (View.ld x7 r256) (View.ld x9 r256) (k0_pay12 (View.ld x0 r800x256) (View.ld x1 r800x1024) (View.ld x3 r256x1024) (View.ld x4 r256x768) (View.ld x6 r256)) (k0_pay13 (View.ld x0 r800x256) (View.ld x3 r256x1024) (View.ld x8 r256))⟩]

/-- The cell-state block after the body, from the ten input blocks: its one store, of the input gate times the
    candidate plus the four children's forget gates times their cell states. -/
def cellOut (x0 : Vec F S800x256 .f32) (x1 : Vec F S800x1024 .f32) (x2 : Vec F S800x1024 .f32) (x3 : Vec F S256x1024 .bf16) (x4 : Vec F S256x768 .bf16) (x5 : Vec F S256x256 .bf16) (x6 : Vec F S256 .f32) (x7 : Vec F S256 .f32) (x8 : Vec F S256 .f32) (x9 : Vec F S256 .f32) : Vec F S800x256 .f32 :=
  View.canon [⟨r800x256, k0_pay1 (k0_pay3 (View.ld x1 r800x1024)) (k0_pay4 (View.ld x2 r800x1024)) (k0_pay5 (View.ld x5 r256x256)) (k0_pay8 (View.ld x0 r800x256) (View.ld x3 r256x1024)) (k0_pay9 (View.ld x0 r800x256) (View.ld x3 r256x1024)) (k0_pay11 (View.ld x1 r800x1024) (View.ld x4 r256x768)) (View.ld x7 r256) (View.ld x9 r256) (k0_pay12 (View.ld x0 r800x256) (View.ld x1 r800x1024) (View.ld x3 r256x1024) (View.ld x4 r256x768) (View.ld x6 r256))⟩]

/-- The one store covers the block. -/
theorem cover_out (p0 : Vec F S800x256 .f32) (y : S800x256.Idx) :
    ∃ pc ∈ ([⟨r800x256, p0⟩] : List (View.Piece (Elt F) S800x256 .f32)), y ∈ pc.1.set :=
  View.cover_of_tiled [⟨r800x256, p0⟩] S800x256.size (by rfl) y

/-! ## The body's triple -/

set_option maxHeartbeats 4000000 in
/-- The body on whole staging buffers, the ten inputs' at contents `x0 … x9` and the two outputs' at anything, runs to
    its end leaving the inputs' as they were and the outputs' at `hiddenOut` and `cellOut` of the inputs'. (The body
    reads each output buffer once before overwriting it whole; what it read is not used.) -/
theorem sound_kernel (c : Dev nD) (E : Set ℕ) (i : grid0.Coords) (arg1 : Memref sig .tc .vmem S800x256 .f32) (harg1 : arg1.IsWhole) (arg2 : Memref sig .tc .vmem S800x1024 .f32) (harg2 : arg2.IsWhole) (arg3 : Memref sig .tc .vmem S800x1024 .f32) (harg3 : arg3.IsWhole) (arg4 : Memref sig .tc .vmem S256x1024 .bf16) (harg4 : arg4.IsWhole) (arg5 : Memref sig .tc .vmem S256x768 .bf16) (harg5 : arg5.IsWhole) (arg6 : Memref sig .tc .vmem S256x256 .bf16) (harg6 : arg6.IsWhole) (arg7 : Memref sig .tc .vmem S256 .f32) (harg7 : arg7.IsWhole) (arg8 : Memref sig .tc .vmem S256 .f32) (harg8 : arg8.IsWhole) (arg9 : Memref sig .tc .vmem S256 .f32) (harg9 : arg9.IsWhole) (arg10 : Memref sig .tc .vmem S256 .f32) (harg10 : arg10.IsWhole) (arg11 : Memref sig .tc .vmem S800x256 .f32) (harg11 : arg11.IsWhole) (arg12 : Memref sig .tc .vmem S800x256 .f32) (harg12 : arg12.IsWhole)
    (x0 : Vec F S800x256 .f32) (x1 : Vec F S800x1024 .f32) (x2 : Vec F S800x1024 .f32) (x3 : Vec F S256x1024 .bf16) (x4 : Vec F S256x768 .bf16) (x5 : Vec F S256x256 .bf16) (x6 : Vec F S256 .f32) (x7 : Vec F S256 .f32) (x8 : Vec F S256 .f32) (x9 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (hiddenOut x0 x1 x2 x3 x4 x5 x6 x7 x8 x9) ∗ owns (c : Thread nD τ) arg12 fullShare (cellOut x0 x1 x2 x3 x4 x5 x6 x7 x8 x9)) -∗ K ⟨⟩))
      ⊢ wp frame (wpE (defs₀ (F := F)) Variants.none c none) E (cc0__tree_lstm_kernel i arg1 harg1 arg2 harg2 arg3 harg3 arg4 harg4 arg5 harg5 arg6 harg6 arg7 harg7 arg8 harg8 arg9 harg9 arg10 harg10 arg11 harg11 arg12 harg12) K := by
  simp only [cc0__tree_lstm_kernel_eq_skeleton]; unfold cc0__tree_lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    try dsimp only
    exact View.read_writes_eq_canon _ _ _ (cover_out _)
  iexists _; isplitr
  swap; · iexact H11
  ipureintro
  try dsimp only
  exact View.read_writes_eq_canon _ _ _ (cover_out _)

/-! ## The proof data of the region -/

/-- On core `c`: the arrays as the region finds them; after the body at point `t` each input's buffer still at its
    block and the two outputs' at `hiddenOut` and `cellOut` of the input blocks; nothing else held, nothing owed. -/
def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => blockAt m c 8 t
    | ⟨9, _⟩ => blockAt m c 9 t
    | ⟨10, _⟩ => hiddenOut (blockAt m c 0 t) (blockAt m c 1 t) (blockAt m c 2 t) (blockAt m c 3 t) (blockAt m c 4 t) (blockAt m c 5 t) (blockAt m c 6 t) (blockAt m c 7 t) (blockAt m c 8 t) (blockAt m c 9 t)
    | ⟨11, _⟩ => cellOut (blockAt m c 0 t) (blockAt m c 1 t) (blockAt m c 2 t) (blockAt m c 3 t) (blockAt m c 4 t) (blockAt m c 5 t) (blockAt m c 6 t) (blockAt m c 7 t) (blockAt m c 8 t) (blockAt m c 9 t)
  Φ _ := Pipeline.ΦA spec0 c
  q _ := fullShare
  owed _ := 0

theorem A_eq (c : Dev nD) (w : Fin cfg0.W) : (dats m 0 c).A w = atEntry m c (Pipeline.arrRef spec0 w) := by
  dsimp only [dats]

theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = blockAt m c 3 t := by dsimp only [dats]
theorem after4 (c : Dev nD) (t : Fin cfg0.N) : (dats m 0 c).after 4 t = blockAt m c 4 t := by dsimp only [dats]
theorem after5 (c : Dev nD) (t : Fin cfg0.N) : (dats m 0 c).after 5 t = blockAt m c 5 t := by dsimp only [dats]
theorem after6 (c : Dev nD) (t : Fin cfg0.N) : (dats m 0 c).after 6 t = blockAt m c 6 t := by dsimp only [dats]
theorem after7 (c : Dev nD) (t : Fin cfg0.N) : (dats m 0 c).after 7 t = blockAt m c 7 t := by dsimp only [dats]
theorem after8 (c : Dev nD) (t : Fin cfg0.N) : (dats m 0 c).after 8 t = blockAt m c 8 t := by dsimp only [dats]
theorem after9 (c : Dev nD) (t : Fin cfg0.N) : (dats m 0 c).after 9 t = blockAt m c 9 t := by dsimp only [dats]
theorem after10 (c : Dev nD) (t : Fin cfg0.N) : (dats m 0 c).after 10 t = hiddenOut (blockAt m c 0 t) (blockAt m c 1 t) (blockAt m c 2 t) (blockAt m c 3 t) (blockAt m c 4 t) (blockAt m c 5 t) (blockAt m c 6 t) (blockAt m c 7 t) (blockAt m c 8 t) (blockAt m c 9 t) := by dsimp only [dats]
theorem after11 (c : Dev nD) (t : Fin cfg0.N) : (dats m 0 c).after 11 t = cellOut (blockAt m c 0 t) (blockAt m c 1 t) (blockAt m c 2 t) (blockAt m c 3 t) (blockAt m c 4 t) (blockAt m c 5 t) (blockAt m c 6 t) (blockAt m c 7 t) (blockAt m c 8 t) (blockAt m c 9 t) := by dsimp only [dats]

theorem staged0 (c : Dev nD) (t : Fin cfg0.N) (d) : (dats m 0 c).before 0 t d = blockAt m c 0 t :=
  staged0_of m (dats m 0 c) (A_eq m c 0) (after0 m c) t d
theorem staged1 (c : Dev nD) (t : Fin cfg0.N) (d) : (dats m 0 c).before 1 t d = blockAt m c 1 t :=
  staged1_of m (dats m 0 c) (A_eq m c 1) (after1 m c) t d
theorem staged2 (c : Dev nD) (t : Fin cfg0.N) (d) : (dats m 0 c).before 2 t d = blockAt m c 2 t :=
  staged2_of m (dats m 0 c) (A_eq m c 2) (after2 m c) t d
theorem staged3 (c : Dev nD) (t : Fin cfg0.N) (d) : (dats m 0 c).before 3 t d = blockAt m c 3 t :=
  staged3_of m (dats m 0 c) (A_eq m c 3) (after3 m c) t d
theorem staged4 (c : Dev nD) (t : Fin cfg0.N) (d) : (dats m 0 c).before 4 t d = blockAt m c 4 t :=
  staged4_of m (dats m 0 c) (A_eq m c 4) (after4 m c) t d
theorem staged5 (c : Dev nD) (t : Fin cfg0.N) (d) : (dats m 0 c).before 5 t d = blockAt m c 5 t :=
  staged5_of m (dats m 0 c) (A_eq m c 5) (after5 m c) t d
theorem staged6 (c : Dev nD) (t : Fin cfg0.N) (d) : (dats m 0 c).before 6 t d = blockAt m c 6 t :=
  staged6_of m (dats m 0 c) (A_eq m c 6) (after6 m c) t d
theorem staged7 (c : Dev nD) (t : Fin cfg0.N) (d) : (dats m 0 c).before 7 t d = blockAt m c 7 t :=
  staged7_of m (dats m 0 c) (A_eq m c 7) (after7 m c) t d
theorem staged8 (c : Dev nD) (t : Fin cfg0.N) (d) : (dats m 0 c).before 8 t d = blockAt m c 8 t :=
  staged8_of m (dats m 0 c) (A_eq m c 8) (after8 m c) t d
theorem staged9 (c : Dev nD) (t : Fin cfg0.N) (d) : (dats m 0 c).before 9 t d = blockAt m c 9 t :=
  staged9_of m (dats m 0 c) (A_eq m c 9) (after9 m c) t d

/-! ## The body at a point -/

/-- What the body is called with at point `t`: each window's current staging buffer, whole, at what it held before. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns: each buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 2000000 in
/-- At any point the inputs' buffers hold their blocks, so the body's triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [staged0, staged1, staged2, staged3, staged4, staged5, staged6, staged7, staged8, staged9]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ _ _ _ _ _ _ _ _ _ _ _ _ _ _ _ _ _ _ _ _ _ _ _ _ _ (blockAt m c 0 t) (blockAt m c 1 t) (blockAt m c 2 t) (blockAt m c 3 t) (blockAt m c 4 t) (blockAt m c 5 t) (blockAt m c 6 t) (blockAt m c 7 t) (blockAt m c 8 t) (blockAt m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of the program terminates without a fault; at the end
    every array a window stages holds what the proof data computes for it (an input its region-entry contents, an
    output those overwritten block by block by what the body left) and every other array what the region found. -/
theorem run_main : θ_run defs (onTc (τ := τ) (main (F := F))) (s₀ m ρ) (Pipeline.FramePost cfgs (dats m) 0 (atEntry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := atEntry m) (hmain := entry_main m Variants.none) (hA := A_eq m) (hΦ := fun _ _ => rfl)

/-- Read at the two results and the fifteen arguments: the results hold the proof data's final arrays, and every
    argument is as launched — the five a window stages as inputs (node features and the four biases) because an
    input's final array is its entry array, the other ten because no window names them, and all fifteen because no
    host operation writes an argument. -/
theorem post_of (r : PUnit × MemSt nD τ sig (Elt F)) (h : Pipeline.FramePost cfgs (dats m) 0 (atEntry m) r) (c : Dev nD) :
    r.2.mem ((c.tc : Thread nD τ).loc main_v10_0) = (dats m 0 c).arrAt 10 cfg0.N
    ∧ r.2.mem ((c.tc : Thread nD τ).loc main_v10_1) = (dats m 0 c).arrAt 11 cfg0.N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14) :=
  ⟨(h c).1 10, (h c).1 11,
    ((h c).1 0).trans (((dats m 0 c).arrAt_in 0 rfl _).trans ((A_eq m c 0).trans (kept m c main_arg0 (by decide)))),
    ((h c).2 main_arg1 (Pipeline.mem_restRefs_of main_arg1 (by decide) (by decide))).trans (kept m c main_arg1 (by decide)),
    ((h c).2 main_arg2 (Pipeline.mem_restRefs_of main_arg2 (by decide) (by decide))).trans (kept m c main_arg2 (by decide)),
    ((h c).2 main_arg3 (Pipeline.mem_restRefs_of main_arg3 (by decide) (by decide))).trans (kept m c main_arg3 (by decide)),
    ((h c).1 6).trans (((dats m 0 c).arrAt_in 6 rfl _).trans ((A_eq m c 6).trans (kept m c main_arg4 (by decide)))),
    ((h c).2 main_arg5 (Pipeline.mem_restRefs_of main_arg5 (by decide) (by decide))).trans (kept m c main_arg5 (by decide)),
    ((h c).1 7).trans (((dats m 0 c).arrAt_in 7 rfl _).trans ((A_eq m c 7).trans (kept m c main_arg6 (by decide)))),
    ((h c).2 main_arg7 (Pipeline.mem_restRefs_of main_arg7 (by decide) (by decide))).trans (kept m c main_arg7 (by decide)),
    ((h c).1 8).trans (((dats m 0 c).arrAt_in 8 rfl _).trans ((A_eq m c 8).trans (kept m c main_arg8 (by decide)))),
    ((h c).2 main_arg9 (Pipeline.mem_restRefs_of main_arg9 (by decide) (by decide))).trans (kept m c main_arg9 (by decide)),
    ((h c).1 9).trans (((dats m 0 c).arrAt_in 9 rfl _).trans ((A_eq m c 9).trans (kept m c main_arg10 (by decide)))),
    ((h c).2 main_arg11 (Pipeline.mem_restRefs_of main_arg11 (by decide) (by decide))).trans (kept m c main_arg11 (by decide)),
    ((h c).2 main_arg12 (Pipeline.mem_restRefs_of main_arg12 (by decide) (by decide))).trans (kept m c main_arg12 (by decide)),
    ((h c).2 main_arg13 (Pipeline.mem_restRefs_of main_arg13 (by decide) (by decide))).trans (kept m c main_arg13 (by decide)),
    ((h c).2 main_arg14 (Pipeline.mem_restRefs_of main_arg14 (by decide) (by decide))).trans (kept m c main_arg14 (by decide))⟩

/-- The frame: the program runs and leaves its fifteen arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => (post_of m r h c).2.2) (run_main m ρ)

end Cert.Kernel.Hand

end
-- ==== Proof.IdealFrame.lean ====
/-
  The child-sum tree-LSTM cell as one pipelined region over 125 blocks of 800 nodes: that the program runs to its end
  and what it leaves.  Before the region the host lays the two child arrays out flat (node by child·feature), stacks
  the four input-weight matrices and the three hidden-weight matrices, and transposes them; the region then, at block
  `t`, reads rows 800·t … 800·t+799 of the node features and of the flattened child states and the whole of the
  weights and biases, and writes rows 800·t … 800·t+799 of the hidden and the cell output.
  Stated here for either reading of the numbers: the arrays as the region finds them; that no argument array is
  written before the region; each window's block at a point; what the body leaves in the two output blocks as a
  function of the ten input blocks; the body's Hoare triple; and the run of the whole program, with the arguments
  unchanged at the end.
-/
import proofs.«126556_j63917703299457_2_alg».proof.Proof.Gen.KernelIdeal.Launch
import proofs.«126556_j63917703299457_2_alg».proof.Proof.Gen.KernelIdeal.Skeleton
import proofs.«126556_j63917703299457_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- Every buffer of the core after the ten host operations that precede the region: the two flattenings, the two
    stackings, the three transposes and the three changes of format, applied in order to the launch contents. -/
abbrev atEntry (c : Dev nD) (b : Ref sig .tc) : Buf (Elt F) ((c : Thread nD τ).loc b) :=
  StableHlo.after hostOps0 (fun b => m (c, b)) b

/-- None of those operations allocates. -/
theorem hostOps0_fresh : (hostOps0 : List (HloOp τ sig (Elt F))).Forall fun op => op.fresh = ∅ := by
  simp only [List.Forall]; repeat' constructor

/-- The program is those operations followed by the region. -/
theorem entry_main (𝒱₀ : Variants) :
    Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub hostOps0_fresh main_chain

/-- The ten arrays the host operations write: each writes one, its result. -/
abbrev hostWritten : List (Ref sig .tc) :=
  [main_v0, main_v1, main_v2, main_v3, main_v4, main_v5, main_v6, main_v7, main_v8, main_v9]

/-- An array that is none of those ten results is found by the region as it was launched. -/
theorem kept (c : Dev nD) (r : Ref sig .tc) (hr : r ∉ hostWritten) : atEntry m c r = m ((c : Thread nD τ).loc r) := by
  simp only [hostWritten, List.mem_cons, List.not_mem_nil, or_false, not_or] at hr
  obtain ⟨h0, h1, h2, h3, h4, h5, h6, h7, h8, h9⟩ := hr
  refine StableHlo.after_of_forall_not_mem (b := Proc.devRef .tc r) _ _ (List.forall_iff_forall_mem.mp ?_)
  simp only [hostOps0, List.Forall, StableHlo.unary_writes, StableHlo.reshape_writes, StableHlo.nary_writes, Finset.mem_singleton]
  exact ⟨StableHlo.devRef_ne_of_ne h0, StableHlo.devRef_ne_of_ne h1, StableHlo.devRef_ne_of_ne h2, StableHlo.devRef_ne_of_ne h3,
    StableHlo.devRef_ne_of_ne h4, StableHlo.devRef_ne_of_ne h5, StableHlo.devRef_ne_of_ne h6, StableHlo.devRef_ne_of_ne h7,
    StableHlo.devRef_ne_of_ne h8, StableHlo.devRef_ne_of_ne h9⟩

/-! ## The windows' blocks -/

/-- Window `w`'s block at point `t`, cut out of its array as the region finds it: for the three streamed inputs rows
    800·t … 800·t+799, for the weights and the biases the whole array. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- Input window 0's staging buffer holds its block at every point, whether or not the point fetched it (a window
    whose block index has not moved is not fetched again and still holds the block), for any proof data whose array is
    the region-entry array and whose body leaves the block in place. -/
theorem staged0_of {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Input window 1's staging buffer holds its block at every point, whether or not the point fetched it (a window
    whose block index has not moved is not fetched again and still holds the block), for any proof data whose array is
    the region-entry array and whose body leaves the block in place. -/
theorem staged1_of {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Input window 2's staging buffer holds its block at every point, whether or not the point fetched it (a window
    whose block index has not moved is not fetched again and still holds the block), for any proof data whose array is
    the region-entry array and whose body leaves the block in place. -/
theorem staged2_of {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- Input window 3's staging buffer holds its block at every point, whether or not the point fetched it (a window
    whose block index has not moved is not fetched again and still holds the block), for any proof data whose array is
    the region-entry array and whose body leaves the block in place. -/
theorem staged3_of {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
/-- Input window 4's staging buffer holds its block at every point, whether or not the point fetched it (a window
    whose block index has not moved is not fetched again and still holds the block), for any proof data whose array is
    the region-entry array and whose body leaves the block in place. -/
theorem staged4_of {c : Dev nD} (dat : Dat τ (Elt F) Unit ℕ (UR sig nD τ) ℕ cfg0 c) (hA : dat.A 4 = atEntry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
/-- Input window 5's staging buffer holds its block at every point, whether or not the point fetched it (a window
    whose block index has not moved is not fetched again and still holds the block), for any proof data whose array is
    the region-entry array and whose body leaves the block in place. -/
theorem staged5_of {c : Dev nD} (dat : Dat τ (Elt F) Unit ℕ (UR sig nD τ) ℕ cfg0 c) (hA : dat.A 5 = atEntry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
/-- Input window 6's staging buffer holds its block at every point, whether or not the point fetched it (a window
    whose block index has not moved is not fetched again and still holds the block), for any proof data whose array is
    the region-entry array and whose body leaves the block in place. -/
theorem staged6_of {c : Dev nD} (dat : Dat τ (Elt F) Unit ℕ (UR sig nD τ) ℕ cfg0 c) (hA : dat.A 6 = atEntry m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)
/-- Input window 7's staging buffer holds its block at every point, whether or not the point fetched it (a window
    whose block index has not moved is not fetched again and still holds the block), for any proof data whose array is
    the region-entry array and whose body leaves the block in place. -/
theorem staged7_of {c : Dev nD} (dat : Dat τ (Elt F) Unit ℕ (UR sig nD τ) ℕ cfg0 c) (hA : dat.A 7 = atEntry m c (Pipeline.arrRef spec0 7))
    (hafter : ∀ t, dat.after 7 t = blockAt m c 7 t) (t : Fin cfg0.N) (d) : dat.before 7 t d = blockAt m c 7 t :=
  (dat.before_in_eq_fetched 7 rfl (fun _ => rfl) (fun _ _ _ => rfl) (fun t => by rw [hafter]; unfold Dat.blockOf blockAt; rw [hA]; try rfl) t d).trans
    (by unfold Dat.fetched Dat.blockOf blockAt; rw [hA]; try rfl)
/-- Input window 8's staging buffer holds its block at every point, whether or not the point fetched it (a window
    whose block index has not moved is not fetched again and still holds the block), for any proof data whose array is
    the region-entry array and whose body leaves the block in place. -/
theorem staged8_of {c : Dev nD} (dat : Dat τ (Elt F) Unit ℕ (UR sig nD τ) ℕ cfg0 c) (hA : dat.A 8 = atEntry m c (Pipeline.arrRef spec0 8))
    (hafter : ∀ t, dat.after 8 t = blockAt m c 8 t) (t : Fin cfg0.N) (d) : dat.before 8 t d = blockAt m c 8 t :=
  (dat.before_in_eq_fetched 8 rfl (fun _ => rfl) (fun _ _ _ => rfl) (fun t => by rw [hafter]; unfold Dat.blockOf blockAt; rw [hA]; try rfl) t d).trans
    (by unfold Dat.fetched Dat.blockOf blockAt; rw [hA]; try rfl)
/-- Input window 9's staging buffer holds its block at every point, whether or not the point fetched it (a window
    whose block index has not moved is not fetched again and still holds the block), for any proof data whose array is
    the region-entry array and whose body leaves the block in place. -/
theorem staged9_of {c : Dev nD} (dat : Dat τ (Elt F) Unit ℕ (UR sig nD τ) ℕ cfg0 c) (hA : dat.A 9 = atEntry m c (Pipeline.arrRef spec0 9))
    (hafter : ∀ t, dat.after 9 t = blockAt m c 9 t) (t : Fin cfg0.N) (d) : dat.before 9 t d = blockAt m c 9 t :=
  (dat.before_in_eq_fetched 9 rfl (fun _ => rfl) (fun _ _ _ => rfl) (fun t => by rw [hafter]; unfold Dat.blockOf blockAt; rw [hA]; try rfl) t d).trans
    (by unfold Dat.fetched Dat.blockOf blockAt; rw [hA]; try rfl)

/-! ## The body's accesses: every load and both stores take the whole of a staging buffer -/

abbrev r800x256 : Rect S800x256 := Rect.unit (s := S800x256) ![0, 0] S800x256.size inb_S800x256_S800x256_0_0
abbrev r800x1024 : Rect S800x1024 := Rect.unit (s := S800x1024) ![0, 0] S800x1024.size inb_S800x1024_S800x1024_0_0
abbrev r256x1024 : Rect S256x1024 := Rect.unit (s := S256x1024) ![0, 0] S256x1024.size inb_S256x1024_S256x1024_0_0
abbrev r256x768 : Rect S256x768 := Rect.unit (s := S256x768) ![0, 0] S256x768.size inb_S256x768_S256x768_0_0
abbrev r256x256 : Rect S256x256 := Rect.unit (s := S256x256) ![0, 0] S256x256.size inb_S256x256_S256x256_0_0
abbrev r256 : Rect S256 := Rect.unit (s := S256) ![0] S256.size inb_S256_S256_0

/-! ## What the body leaves in the two output blocks -/

/-- The hidden-state block after the body, from the ten input blocks: its one store, of the output gate times the
    hyperbolic tangent of the new cell state. -/
def hiddenOut (x0 : Vec F S800x256 .f32) (x1 : Vec F S800x1024 .f32) (x2 : Vec F S800x1024 .f32) (x3 : Vec F S256x1024 .bf16) (x4 : Vec F S256x768 .bf16) (x5 : Vec F S256x256 .bf16) (x6 : Vec F S256 .f32) (x7 : Vec F S256 .f32) (x8 : Vec F S256 .f32) (x9 : Vec F S256 .f32) : Vec F S800x256 .f32 :=
  View.canon [⟨r800x256, k0_pay2 (k0_pay3 (View.ld x1 r800x1024)) (k0_pay4 (View.ld x2 r800x1024)) (k0_pay5 (View.ld x5 r256x256)) (k0_pay8 (View.ld x0 r800x256) (View.ld x3 r256x1024)) (k0_pay9 (View.ld x0 r800x256) (View.ld x3 r256x1024)) (k0_pay10 (View.ld x1 r800x1024) (View.ld x4 r256x768)) (k0_pay11 (View.ld x1 r800x1024) (View.ld x4 r256x768)) (View.ld x7 r256) (View.ld x9 r256) (k0_pay12 (View.ld x0 r800x256) (View.ld x1 r800x1024) (View.ld x3 r256x1024) (View.ld x4 r256x768) (View.ld x6 r256)) (k0_pay13 (View.ld x0 r800x256) (View.ld x3 r256x1024) (View.ld x8 r256))⟩]

/-- The cell-state block after the body, from the ten input blocks: its one store, of the input gate times the
    candidate plus the four children's forget gates times their cell states. -/
def cellOut (x0 : Vec F S800x256 .f32) (x1 : Vec F S800x1024 .f32) (x2 : Vec F S800x1024 .f32) (x3 : Vec F S256x1024 .bf16) (x4 : Vec F S256x768 .bf16) (x5 : Vec F S256x256 .bf16) (x6 : Vec F S256 .f32) (x7 : Vec F S256 .f32) (x8 : Vec F S256 .f32) (x9 : Vec F S256 .f32) : Vec F S800x256 .f32 :=
  View.canon [⟨r800x256, k0_pay1 (k0_pay3 (View.ld x1 r800x1024)) (k0_pay4 (View.ld x2 r800x1024)) (k0_pay5 (View.ld x5 r256x256)) (k0_pay8 (View.ld x0 r800x256) (View.ld x3 r256x1024)) (k0_pay9 (View.ld x0 r800x256) (View.ld x3 r256x1024)) (k0_pay11 (View.ld x1 r800x1024) (View.ld x4 r256x768)) (View.ld x7 r256) (View.ld x9 r256) (k0_pay12 (View.ld x0 r800x256) (View.ld x1 r800x1024) (View.ld x3 r256x1024) (View.ld x4 r256x768) (View.ld x6 r256))⟩]

/-- The one store covers the block. -/
theorem cover_out (p0 : Vec F S800x256 .f32) (y : S800x256.Idx) :
    ∃ pc ∈ ([⟨r800x256, p0⟩] : List (View.Piece (Elt F) S800x256 .f32)), y ∈ pc.1.set :=
  View.cover_of_tiled [⟨r800x256, p0⟩] S800x256.size (by rfl) y

/-! ## The body's triple -/

set_option maxHeartbeats 4000000 in
/-- The body on whole staging buffers, the ten inputs' at contents `x0 … x9` and the two outputs' at anything, runs to
    its end leaving the inputs' as they were and the outputs' at `hiddenOut` and `cellOut` of the inputs'. (The body
    reads each output buffer once before overwriting it whole; what it read is not used.) -/
theorem sound_kernel (c : Dev nD) (E : Set ℕ) (i : grid0.Coords) (arg1 : Memref sig .tc .vmem S800x256 .f32) (harg1 : arg1.IsWhole) (arg2 : Memref sig .tc .vmem S800x1024 .f32) (harg2 : arg2.IsWhole) (arg3 : Memref sig .tc .vmem S800x1024 .f32) (harg3 : arg3.IsWhole) (arg4 : Memref sig .tc .vmem S256x1024 .bf16) (harg4 : arg4.IsWhole) (arg5 : Memref sig .tc .vmem S256x768 .bf16) (harg5 : arg5.IsWhole) (arg6 : Memref sig .tc .vmem S256x256 .bf16) (harg6 : arg6.IsWhole) (arg7 : Memref sig .tc .vmem S256 .f32) (harg7 : arg7.IsWhole) (arg8 : Memref sig .tc .vmem S256 .f32) (harg8 : arg8.IsWhole) (arg9 : Memref sig .tc .vmem S256 .f32) (harg9 : arg9.IsWhole) (arg10 : Memref sig .tc .vmem S256 .f32) (harg10 : arg10.IsWhole) (arg11 : Memref sig .tc .vmem S800x256 .f32) (harg11 : arg11.IsWhole) (arg12 : Memref sig .tc .vmem S800x256 .f32) (harg12 : arg12.IsWhole)
    (x0 : Vec F S800x256 .f32) (x1 : Vec F S800x1024 .f32) (x2 : Vec F S800x1024 .f32) (x3 : Vec F S256x1024 .bf16) (x4 : Vec F S256x768 .bf16) (x5 : Vec F S256x256 .bf16) (x6 : Vec F S256 .f32) (x7 : Vec F S256 .f32) (x8 : Vec F S256 .f32) (x9 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (hiddenOut x0 x1 x2 x3 x4 x5 x6 x7 x8 x9) ∗ owns (c : Thread nD τ) arg12 fullShare (cellOut x0 x1 x2 x3 x4 x5 x6 x7 x8 x9)) -∗ K ⟨⟩))
      ⊢ wp frame (wpE (defs₀ (F := F)) Variants.none c none) E (cc0__tree_lstm_kernel i arg1 harg1 arg2 harg2 arg3 harg3 arg4 harg4 arg5 harg5 arg6 harg6 arg7 harg7 arg8 harg8 arg9 harg9 arg10 harg10 arg11 harg11 arg12 harg12) K := by
  simp only [cc0__tree_lstm_kernel_eq_skeleton]; unfold cc0__tree_lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    try dsimp only
    exact View.read_writes_eq_canon _ _ _ (cover_out _)
  iexists _; isplitr
  swap; · iexact H11
  ipureintro
  try dsimp only
  exact View.read_writes_eq_canon _ _ _ (cover_out _)

/-! ## The proof data of the region -/

/-- On core `c`: the arrays as the region finds them; after the body at point `t` each input's buffer still at its
    block and the two outputs' at `hiddenOut` and `cellOut` of the input blocks; nothing else held, nothing owed. -/
def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => blockAt m c 8 t
    | ⟨9, _⟩ => blockAt m c 9 t
    | ⟨10, _⟩ => hiddenOut (blockAt m c 0 t) (blockAt m c 1 t) (blockAt m c 2 t) (blockAt m c 3 t) (blockAt m c 4 t) (blockAt m c 5 t) (blockAt m c 6 t) (blockAt m c 7 t) (blockAt m c 8 t) (blockAt m c 9 t)
    | ⟨11, _⟩ => cellOut (blockAt m c 0 t) (blockAt m c 1 t) (blockAt m c 2 t) (blockAt m c 3 t) (blockAt m c 4 t) (blockAt m c 5 t) (blockAt m c 6 t) (blockAt m c 7 t) (blockAt m c 8 t) (blockAt m c 9 t)
  Φ _ := Pipeline.ΦA spec0 c
  q _ := fullShare
  owed _ := 0

theorem A_eq (c : Dev nD) (w : Fin cfg0.W) : (dats m 0 c).A w = atEntry m c (Pipeline.arrRef spec0 w) := by
  dsimp only [dats]

theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = blockAt m c 3 t := by dsimp only [dats]
theorem after4 (c : Dev nD) (t : Fin cfg0.N) : (dats m 0 c).after 4 t = blockAt m c 4 t := by dsimp only [dats]
theorem after5 (c : Dev nD) (t : Fin cfg0.N) : (dats m 0 c).after 5 t = blockAt m c 5 t := by dsimp only [dats]
theorem after6 (c : Dev nD) (t : Fin cfg0.N) : (dats m 0 c).after 6 t = blockAt m c 6 t := by dsimp only [dats]
theorem after7 (c : Dev nD) (t : Fin cfg0.N) : (dats m 0 c).after 7 t = blockAt m c 7 t := by dsimp only [dats]
theorem after8 (c : Dev nD) (t : Fin cfg0.N) : (dats m 0 c).after 8 t = blockAt m c 8 t := by dsimp only [dats]
theorem after9 (c : Dev nD) (t : Fin cfg0.N) : (dats m 0 c).after 9 t = blockAt m c 9 t := by dsimp only [dats]
theorem after10 (c : Dev nD) (t : Fin cfg0.N) : (dats m 0 c).after 10 t = hiddenOut (blockAt m c 0 t) (blockAt m c 1 t) (blockAt m c 2 t) (blockAt m c 3 t) (blockAt m c 4 t) (blockAt m c 5 t) (blockAt m c 6 t) (blockAt m c 7 t) (blockAt m c 8 t) (blockAt m c 9 t) := by dsimp only [dats]
theorem after11 (c : Dev nD) (t : Fin cfg0.N) : (dats m 0 c).after 11 t = cellOut (blockAt m c 0 t) (blockAt m c 1 t) (blockAt m c 2 t) (blockAt m c 3 t) (blockAt m c 4 t) (blockAt m c 5 t) (blockAt m c 6 t) (blockAt m c 7 t) (blockAt m c 8 t) (blockAt m c 9 t) := by dsimp only [dats]

theorem staged0 (c : Dev nD) (t : Fin cfg0.N) (d) : (dats m 0 c).before 0 t d = blockAt m c 0 t :=
  staged0_of m (dats m 0 c) (A_eq m c 0) (after0 m c) t d
theorem staged1 (c : Dev nD) (t : Fin cfg0.N) (d) : (dats m 0 c).before 1 t d = blockAt m c 1 t :=
  staged1_of m (dats m 0 c) (A_eq m c 1) (after1 m c) t d
theorem staged2 (c : Dev nD) (t : Fin cfg0.N) (d) : (dats m 0 c).before 2 t d = blockAt m c 2 t :=
  staged2_of m (dats m 0 c) (A_eq m c 2) (after2 m c) t d
theorem staged3 (c : Dev nD) (t : Fin cfg0.N) (d) : (dats m 0 c).before 3 t d = blockAt m c 3 t :=
  staged3_of m (dats m 0 c) (A_eq m c 3) (after3 m c) t d
theorem staged4 (c : Dev nD) (t : Fin cfg0.N) (d) : (dats m 0 c).before 4 t d = blockAt m c 4 t :=
  staged4_of m (dats m 0 c) (A_eq m c 4) (after4 m c) t d
theorem staged5 (c : Dev nD) (t : Fin cfg0.N) (d) : (dats m 0 c).before 5 t d = blockAt m c 5 t :=
  staged5_of m (dats m 0 c) (A_eq m c 5) (after5 m c) t d
theorem staged6 (c : Dev nD) (t : Fin cfg0.N) (d) : (dats m 0 c).before 6 t d = blockAt m c 6 t :=
  staged6_of m (dats m 0 c) (A_eq m c 6) (after6 m c) t d
theorem staged7 (c : Dev nD) (t : Fin cfg0.N) (d) : (dats m 0 c).before 7 t d = blockAt m c 7 t :=
  staged7_of m (dats m 0 c) (A_eq m c 7) (after7 m c) t d
theorem staged8 (c : Dev nD) (t : Fin cfg0.N) (d) : (dats m 0 c).before 8 t d = blockAt m c 8 t :=
  staged8_of m (dats m 0 c) (A_eq m c 8) (after8 m c) t d
theorem staged9 (c : Dev nD) (t : Fin cfg0.N) (d) : (dats m 0 c).before 9 t d = blockAt m c 9 t :=
  staged9_of m (dats m 0 c) (A_eq m c 9) (after9 m c) t d

/-! ## The body at a point -/

/-- What the body is called with at point `t`: each window's current staging buffer, whole, at what it held before. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns: each buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 2000000 in
/-- At any point the inputs' buffers hold their blocks, so the body's triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [staged0, staged1, staged2, staged3, staged4, staged5, staged6, staged7, staged8, staged9]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ _ _ _ _ _ _ _ _ _ _ _ _ _ _ _ _ _ _ _ _ _ _ _ _ _ (blockAt m c 0 t) (blockAt m c 1 t) (blockAt m c 2 t) (blockAt m c 3 t) (blockAt m c 4 t) (blockAt m c 5 t) (blockAt m c 6 t) (blockAt m c 7 t) (blockAt m c 8 t) (blockAt m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of the program terminates without a fault; at the end
    every array a window stages holds what the proof data computes for it (an input its region-entry contents, an
    output those overwritten block by block by what the body left) and every other array what the region found. -/
theorem run_main : θ_run defs (onTc (τ := τ) (main (F := F))) (s₀ m ρ) (Pipeline.FramePost cfgs (dats m) 0 (atEntry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := atEntry m) (hmain := entry_main m Variants.none) (hA := A_eq m) (hΦ := fun _ _ => rfl)

/-- Read at the two results and the fifteen arguments: the results hold the proof data's final arrays, and every
    argument is as launched — the five a window stages as inputs (node features and the four biases) because an
    input's final array is its entry array, the other ten because no window names them, and all fifteen because no
    host operation writes an argument. -/
theorem post_of (r : PUnit × MemSt nD τ sig (Elt F)) (h : Pipeline.FramePost cfgs (dats m) 0 (atEntry m) r) (c : Dev nD) :
    r.2.mem ((c.tc : Thread nD τ).loc main_v10_0) = (dats m 0 c).arrAt 10 cfg0.N
    ∧ r.2.mem ((c.tc : Thread nD τ).loc main_v10_1) = (dats m 0 c).arrAt 11 cfg0.N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14) :=
  ⟨(h c).1 10, (h c).1 11,
    ((h c).1 0).trans (((dats m 0 c).arrAt_in 0 rfl _).trans ((A_eq m c 0).trans (kept m c main_arg0 (by decide)))),
    ((h c).2 main_arg1 (Pipeline.mem_restRefs_of main_arg1 (by decide) (by decide))).trans (kept m c main_arg1 (by decide)),
    ((h c).2 main_arg2 (Pipeline.mem_restRefs_of main_arg2 (by decide) (by decide))).trans (kept m c main_arg2 (by decide)),
    ((h c).2 main_arg3 (Pipeline.mem_restRefs_of main_arg3 (by decide) (by decide))).trans (kept m c main_arg3 (by decide)),
    ((h c).1 6).trans (((dats m 0 c).arrAt_in 6 rfl _).trans ((A_eq m c 6).trans (kept m c main_arg4 (by decide)))),
    ((h c).2 main_arg5 (Pipeline.mem_restRefs_of main_arg5 (by decide) (by decide))).trans (kept m c main_arg5 (by decide)),
    ((h c).1 7).trans (((dats m 0 c).arrAt_in 7 rfl _).trans ((A_eq m c 7).trans (kept m c main_arg6 (by decide)))),
    ((h c).2 main_arg7 (Pipeline.mem_restRefs_of main_arg7 (by decide) (by decide))).trans (kept m c main_arg7 (by decide)),
    ((h c).1 8).trans (((dats m 0 c).arrAt_in 8 rfl _).trans ((A_eq m c 8).trans (kept m c main_arg8 (by decide)))),
    ((h c).2 main_arg9 (Pipeline.mem_restRefs_of main_arg9 (by decide) (by decide))).trans (kept m c main_arg9 (by decide)),
    ((h c).1 9).trans (((dats m 0 c).arrAt_in 9 rfl _).trans ((A_eq m c 9).trans (kept m c main_arg10 (by decide)))),
    ((h c).2 main_arg11 (Pipeline.mem_restRefs_of main_arg11 (by decide) (by decide))).trans (kept m c main_arg11 (by decide)),
    ((h c).2 main_arg12 (Pipeline.mem_restRefs_of main_arg12 (by decide) (by decide))).trans (kept m c main_arg12 (by decide)),
    ((h c).2 main_arg13 (Pipeline.mem_restRefs_of main_arg13 (by decide) (by decide))).trans (kept m c main_arg13 (by decide)),
    ((h c).2 main_arg14 (Pipeline.mem_restRefs_of main_arg14 (by decide) (by decide))).trans (kept m c main_arg14 (by decide))⟩

/-- The frame: the program runs and leaves its fifteen arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => (post_of m r h c).2.2) (run_main m ρ)

end Cert.KernelIdeal.Hand

end
-- ==== Proof.Spec.lean ====
/-
  The child-sum tree-LSTM cell as mathematics, over the extended reals. A node carries a feature vector `x` of length
  256 and, for each of its four children, a hidden state `h k` and a cell state `c k` of length 256. With input
  weights `W`, hidden weights `U` (each `[output feature, input feature]`) and biases `b`:
    h̃     = Σ_k h k                                        (the children's hidden states, summed)
    i, o  = σ(W x + b + U h̃)      u = tanh(W x + b + U h̃)   (input gate, output gate, candidate)
    f k   = σ((W_f x + b_f) + U_f (h k))                    (one forget gate per child)
    c     = i · u + Σ_k f k · c k                           (the new cell state)
    h     = o · tanh c                                      (the new hidden state)
  with σ the logistic function 1 / (1 + e^(-t)). Sums of extended reals associate and commute (only +∞ + −∞ needs a
  convention, and the convention is symmetric), so the grouping of the four-term sums and of the dot products is free.
-/
import Idealize.ShloMosaic.PureOps.Ideal
import Idealize.ShloMosaic.PureOps.Ideal.Laws

noncomputable section

namespace Cert.TreeCell

open Idealize.ShloMosaic
open scoped BigOperators

/-- The cell's parameters: eight 256 × 256 matrices read as `[output feature, input feature]`, four biases. -/
structure Weights where
  Wi : Fin 256 → Fin 256 → EReal
  Wf : Fin 256 → Fin 256 → EReal
  Wo : Fin 256 → Fin 256 → EReal
  Wu : Fin 256 → Fin 256 → EReal
  Ui : Fin 256 → Fin 256 → EReal
  Uf : Fin 256 → Fin 256 → EReal
  Uo : Fin 256 → Fin 256 → EReal
  Uu : Fin 256 → Fin 256 → EReal
  bi : Fin 256 → EReal
  bf : Fin 256 → EReal
  bo : Fin 256 → EReal
  bu : Fin 256 → EReal

/-- One node's data: its features, and each child's hidden and cell state. -/
structure Node where
  x : Fin 256 → EReal
  h : Fin 4 → Fin 256 → EReal
  c : Fin 4 → Fin 256 → EReal

/-- The children's hidden states summed, feature by feature. -/
def hsum (v : Node) (e : Fin 256) : EReal := ∑ k : Fin 4, v.h k e

/-- `W x + b + U h̃` at output feature `j`. -/
def lin (W U : Fin 256 → Fin 256 → EReal) (b : Fin 256 → EReal) (v : Node) (j : Fin 256) : EReal :=
  (∑ d : Fin 256, v.x d * W j d) + b j + ∑ e : Fin 256, hsum v e * U j e

/-- Child `k`'s forget gate at feature `j`. -/
def forget (P : Weights) (v : Node) (k : Fin 4) (j : Fin 256) : EReal :=
  Ideal.logistic (((∑ d : Fin 256, v.x d * P.Wf j d) + P.bf j) + ∑ e : Fin 256, v.h k e * P.Uf j e)

/-- The new cell state at feature `j`. -/
def cell (P : Weights) (v : Node) (j : Fin 256) : EReal :=
  Ideal.logistic (lin P.Wi P.Ui P.bi v j) * Ideal.tanh (lin P.Wu P.Uu P.bu v j) + ∑ k : Fin 4, forget P v k j * v.c k j

/-- The new hidden state at feature `j`. -/
def hidden (P : Weights) (v : Node) (j : Fin 256) : EReal :=
  Ideal.logistic (lin P.Wo P.Uo P.bo v j) * Ideal.tanh (cell P v j)

end Cert.TreeCell

end
-- ==== Proof.LibTiles.lean ====
/-
  Tiles of matrices read at an index, over variable extents. A block of columns cut out of a matrix reads the matrix
  at the shifted column. A plain matrix product into a zero accumulator, at the extended reals, is at (p, c) the sum
  over the shared axis of the left factor's row p times the right factor's column c. A four-term sum written as a left
  nest, alone or on top of a first term, is the sum over `Fin 4`. The float words of 0 and 1 are 0 and 1.
-/
import Idealize.ShloMosaic.PureOps.Ideal.Laws
import Idealize.ShloMosaic.Lib.ValueIdx
import Idealize.ShloMosaic.Lib.Pipeline.Value

noncomputable section

namespace Cert.LibTiles

open Idealize.ShloMosaic Idealize.ShloMosaic.ValueIdx
open scoped BigOperators

variable {α : Type}

/-- Columns `o … o + C' − 1` of an `[R, C]` matrix, read at `(p, j)`: the matrix at `(p, o + j)`. -/
theorem sliceCols_apply {R C C' : ℕ} (o : ℕ) (v : (⟨2, ![R, C]⟩ : Shape).Idx → α)
    (h : (⟨2, ![R, C]⟩ : Shape).Slices ![0, o] ⟨2, ![R, C']⟩) (p : Fin R) (j : Fin C') (hj : o + j.val < C) :
    extractStridedSlice ⟨2, ![R, C']⟩ ![0, o] v h (ix2 p j) = v (ix2 p ⟨o + j.val, hj⟩) :=
  extractStridedSlice_apply ![0, o] v h (ix2 p j) (ix2 p ⟨o + j.val, hj⟩) (fun a => match a with
    | ⟨0, _⟩ => by show p.val = 0 + p.val; omega
    | ⟨1, _⟩ => rfl)

/-- A plain `[M, K] · [K, N]` product into the zero accumulator, read at `(p, c)` at the extended reals: the sum over
    the shared axis. The four hypotheses say which coordinates the product's dimension numbers pair up. -/
theorem matmul_plain_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![M, K]⟩ φ₁) (rhs : FVec Ideal ⟨2, ![K, N]⟩ φ₂) (p : Fin M) (c : Fin N) :
    matmul d prec lhs rhs (constant (F := Ideal) ⟨2, ![M, N]⟩ .f32 0x00000000#32) (ix2 p c)
      = ∑ k : Fin K, lhs (ix2 p k) * rhs (ix2 k c) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p c) ((contrEquiv1 d K hr hs).symm k) = ix2 p k := funext fun a => Fin.ext (by
    match a with
    | ⟨0, _⟩ => exact hl0 _ _
    | ⟨1, _⟩ => exact (hl1 _ _).trans hk)
  have er : d.rhsIdx (ix2 p c) ((contrEquiv1 d K hr hs).symm k) = ix2 k c := funext fun a => Fin.ext (by
    match a with
    | ⟨0, _⟩ => exact (hr0 _ _).trans hk
    | ⟨1, _⟩ => exact hr1 _ _)
  rw [el, er]

/-- Four terms added left to right are their sum over `Fin 4`. -/
theorem sum4_nest {M : Type*} [AddCommMonoid M] (f : Fin 4 → M) : ((f 0 + f 1) + f 2) + f 3 = ∑ k : Fin 4, f k :=
  (Fin.sum_univ_four f).symm

/-- Four terms added one after another on top of a first one are the first plus their sum over `Fin 4`. -/
theorem acc4_nest {M : Type*} [AddCommMonoid M] (a : M) (f : Fin 4 → M) :
    (((a + f 0) + f 1) + f 2) + f 3 = a + ∑ k : Fin 4, f k := by
  rw [Fin.sum_univ_four, add_assoc, add_assoc, add_assoc, add_assoc, add_assoc]

/-- The f32 word `0x3F800000` is the number one. -/
theorem one_f32 : Ideal.ofBits .f32 0x3F800000#32 = 1 := by
  simp [Ideal.ofBits, Ideal.ieee, -EReal.coe_mul]; norm_num

end Cert.LibTiles

end
-- ==== Proof.LibCols.lean ====
/-
  Columns of a matrix read at an index, over the extended reals. The maximum down a matrix's columns, as a kernel takes
  it (a reduction over axis 0 folded from an accumulator word) and as a host reduction takes it (folded from an initial
  value), is at column `j` the fold of `max` over that column's entries. A column cut out of an array as a unit-width
  slice reads the array at that column, and four such columns joined side by side read, at (i, k), column k at row i.
  A vector laid out as one row and spread
  down the rows of a matrix reads, at (p, c), the vector's entry c. The float word for −∞ is the bottom element of the
  extended reals, so a fold of `max` that starts from it is the supremum.
-/
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value
import Mathlib.Data.Finset.Lattice.Fold

noncomputable section

namespace Cert.LibCols

open Idealize.ShloMosaic Idealize.ShloMosaic.ValueIdx

variable {α : Type}

/-- An `[b]` vector laid out as the row `[1, b]` and spread down the rows of an `[a, b]` matrix reads, at `(p, c)`,
    its entry `c`. -/
theorem row_spread_apply {a b : ℕ} (x : (⟨1, ![b]⟩ : Shape).Idx → α) (h : (⟨1, ![b]⟩ : Shape).ShapeCasts ⟨2, ![1, b]⟩)
    (h' : (⟨2, ![1, b]⟩ : Shape).Broadcasts ⟨2, ![a, b]⟩) (p : Fin a) (c : Fin b) :
    broadcastTo ⟨2, ![a, b]⟩ (shapeCast ⟨2, ![1, b]⟩ x h) h' (ix2 p c) = x (ix1 c) :=
  (broadcastTo_1b_ab_apply _ h' p c).trans (shapeCast_a_1a_apply x h 0 c)

/-- Column `k` of an `[n, m]` array taken as a unit-width slice with the unit axis dropped reads, at `i`, the array at
    `(i, k)`. -/
theorem sliceCol_apply {n m : ℕ} (k : Fin m) (X : (⟨2, ![n, m]⟩ : Shape).Idx → α)
    (hs : (⟨2, ![n, m]⟩ : Shape).Slices ![0, k.val] ⟨2, ![n, 1]⟩)
    (hc : (⟨2, ![n, 1]⟩ : Shape).ShapeCasts ⟨1, ![n]⟩) (i : Fin n) :
    shapeCast ⟨1, ![n]⟩ (extractStridedSlice ⟨2, ![n, 1]⟩ ![0, k.val] X hs) hc (ix1 i) = X (ix2 i k) := by
  refine (shapeCast_apply _ hc (ix1 i) (ix2 i (0 : Fin 1)) ?_).trans ?_
  · rw [Shape.rowMajor_val_two, Shape.rowMajor_val_one]
    show i.val * 1 + 0 = i.val
    omega
  · exact extractStridedSlice_apply ![0, k.val] X hs (ix2 i (0 : Fin 1)) (ix2 i k) (fun a => match a with
      | ⟨0, _⟩ => by show i.val = 0 + i.val; omega
      | ⟨1, _⟩ => by show k.val = k.val + 0; omega)

/-- Four `[n, 1]` columns joined side by side read, at `(i, k)`, column `k` at row `i`. -/
theorem concat4_apply {n : ℕ} (c : Fin 4 → (⟨2, ![n, 1]⟩ : Shape).Idx → α)
    (h : Shape.Concatenates
      (([⟨⟨2, ![n, 1]⟩, c 0⟩, ⟨⟨2, ![n, 1]⟩, c 1⟩, ⟨⟨2, ![n, 1]⟩, c 2⟩, ⟨⟨2, ![n, 1]⟩, c 3⟩] :
        List ((s : Shape) × (s.Idx → α))).map (·.1)) ⟨2, ![n, 4]⟩ 1)
    (i : Fin n) (k : Fin 4) :
    concatenate ⟨2, ![n, 4]⟩ 1 [⟨⟨2, ![n, 1]⟩, c 0⟩, ⟨⟨2, ![n, 1]⟩, c 1⟩, ⟨⟨2, ![n, 1]⟩, c 2⟩, ⟨⟨2, ![n, 1]⟩, c 3⟩] h (ix2 i k)
      = c k (ix2 i (0 : Fin 1)) := by
  have hi : ∀ b : Fin (⟨2, ![n, 1]⟩ : Shape).rank, b.cast (rfl : (⟨2, ![n, 1]⟩ : Shape).rank = (⟨2, ![n, 4]⟩ : Shape).rank) ≠ 1 →
      ((ix2 i (0 : Fin 1) : (⟨2, ![n, 1]⟩ : Shape).Idx) b).val = ((ix2 i k : (⟨2, ![n, 4]⟩ : Shape).Idx) (b.cast rfl)).val := by
    intro b hb
    match b with
    | ⟨0, _⟩ => rfl
    | ⟨1, _⟩ => exact absurd rfl hb
  match k with
  | ⟨0, _⟩ => exact concatenate_apply_piece 1 _ h (ix2 i _) 0 (by show 0 < 4; omega) _ (c 0) rfl rfl 0 rfl (ix2 i 0) hi rfl
  | ⟨1, _⟩ => exact concatenate_apply_piece 1 _ h (ix2 i _) 1 (by show 1 < 4; omega) _ (c 1) rfl rfl 1 rfl (ix2 i 0) hi rfl
  | ⟨2, _⟩ => exact concatenate_apply_piece 1 _ h (ix2 i _) 2 (by show 2 < 4; omega) _ (c 2) rfl rfl 2 rfl (ix2 i 0) hi rfl
  | ⟨3, _⟩ => exact concatenate_apply_piece 1 _ h (ix2 i _) 3 (by show 3 < 4; omega) _ (c 3) rfl rfl 3 rfl (ix2 i 0) hi rfl

/-- Column `j` of a matrix with the row coordinate `k` put back is `(k, j)`. -/
theorem lift_col {a b : ℕ} (h : (⟨2, ![a, b]⟩ : Shape).Reduces [0] (⟨1, ![b]⟩ : Shape)) (j : Fin b)
    (k : Fin ((⟨2, ![a, b]⟩ : Shape).size 0)) : h.lift (ix1 j) k = ix2 (⟨k.val, k.isLt⟩ : Fin a) j := by
  funext c; apply Fin.ext
  fin_cases c <;> rfl

/-- The maximum down a matrix's columns, folded from the accumulator's word: at column `j`, the fold of `max` over the
    column. -/
theorem colMax_apply {a b : ℕ} (X : FVec Ideal ⟨2, ![a, b]⟩ .f32) (acc : BitVec 32)
    (h : (⟨2, ![a, b]⟩ : Shape).Reduces [0] (⟨1, ![b]⟩ : Shape)) (hφ : FKind.Formats .f32)
    (hacc : acc = FKind.maximumf.neutral .f32 hφ) (j : Fin b) :
    multiReduction .maximumf [0] ⟨1, ![b]⟩ X acc h hφ hacc (ix1 j)
      = (Finset.univ : Finset (Fin a)).fold max (Ideal.ofBits .f32 acc) (fun k => X (ix2 k j)) := by
  refine (Ideal.multiReduction_maximumf_single X acc h hφ hacc (ix1 j)).trans ?_
  have hf : (X ∘ h.lift (ix1 j)) = fun k : Fin a => X (ix2 k j) := funext fun k => congrArg X (lift_col h j k)
  exact congrArg (fun f => Finset.fold max (Ideal.ofBits .f32 acc) f (Finset.univ : Finset (Fin a))) hf

/-- A host reduction by `max` down a matrix's columns: at column `j`, the fold of `max` from the initial value over the
    column. -/
theorem hostColMax_apply {a b : ℕ} {u : Shape} (X : FVec Ideal ⟨2, ![a, b]⟩ .f32) (init : u.Idx → Ideal .f32)
    (h' : (⟨2, ![a, b]⟩ : Shape).ReducesTo [0] (⟨1, ![b]⟩ : Shape))
    (h : (⟨2, ![a, b]⟩ : Shape).Reduces [0] (⟨1, ![b]⟩ : Shape)) (hu : 0 < u.numel) (j : Fin b) :
    Host.reduce FloatOps.maximumf X init h' hu (ix1 j)
      = (Finset.univ : Finset (Fin a)).fold max (init (Shape.Idx.first hu)) (fun k => X (ix2 k j)) := by
  refine (Host.reduce_eq_fold_single FloatOps.maximumf X init h' h hu (ix1 j)).trans ?_
  have hf : (X ∘ h.lift (ix1 j)) = fun k : Fin a => X (ix2 k j) := funext fun k => congrArg X (lift_col h j k)
  exact congrArg (fun f => Finset.fold max (init (Shape.Idx.first hu)) f (Finset.univ : Finset (Fin a))) hf

/-- The f32 word of −∞ is the bottom element of the extended reals. -/
theorem ninf_eq_bot : Ideal.ofBits .f32 0xFF800000#32 = (⊥ : EReal) := by
  simp [Ideal.ofBits, Ideal.ieee]

/-- A fold of `max` that starts from −∞ is the supremum. -/
theorem fold_max_ninf {ι : Type*} (s : Finset ι) (f : ι → Ideal .f32) :
    s.fold max (Ideal.ofBits .f32 0xFF800000#32) f = s.sup f := by
  rw [ninf_eq_bot]; rfl

end Cert.LibCols

end
-- ==== Proof.BlockValue.lean ====
/-
  What the body of the tree-LSTM region computes on one block of 800 nodes, index by index, at the extended reals:
  the two values it stores are, at row `p` and feature `j`, the cell state and the hidden state of the child-sum cell
  (Spec) of the node whose data is row `p` of the three streamed blocks, under the weights read off the three weight
  blocks: gate `g`'s input weights are columns 256·g … 256·g+255 of the first (stacked, transposed) weight block, its
  hidden weights the same columns of the second, the forget gate's hidden weights the third block transposed; child
  `k`'s states are columns 256·k … 256·k+255 of the flattened child blocks.
  The three matrix products are plain sums over the shared axis (no rounding: a change of float format is the identity
  here); the column blocks are slices read at a shifted column; a bias is a row spread down the block.
-/
import proofs.«126556_j63917703299457_2_alg».proof.Proof.Gen.KernelIdeal.Skeleton
import proofs.«126556_j63917703299457_2_alg».proof.Proof.Spec
import proofs.«126556_j63917703299457_2_alg».proof.Proof.LibTiles
import proofs.«126556_j63917703299457_2_alg».proof.Proof.LibCols
import Idealize.ShloMosaic.PureOps.Ideal.Laws
import Idealize.ShloMosaic.Lib.ValueIdx
import Idealize.ShloMosaic.Lib.Pipeline.Value

set_option maxRecDepth 16384

noncomputable section

namespace Cert.KernelIdeal.Block

open Idealize.ShloMosaic Idealize.ShloMosaic.ValueIdx
open Cert.KernelIdeal Cert.KernelIdeal.Gen Cert.TreeCell
open scoped BigOperators

/-! ## The three products' dimension numbers: rows with the shared axis, the shared axis with columns -/

theorem dW_l0 (i : _) (q : dot_S800x256_S256x1024_S800x1024_1_0_0_1_n_n.contr.Idx) : (dot_S800x256_S256x1024_S800x1024_1_0_0_1_n_n.lhsIdx i q 0).val = (i 0).val := by
  unfold DotDims.lhsIdx
  rw [dif_neg (show ¬(0 : Fin S800x256.rank) ∈ dot_S800x256_S256x1024_S800x1024_1_0_0_1_n_n.lhsBatch by decide), dif_pos (show (0 : Fin S800x256.rank) ∈ dot_S800x256_S256x1024_S800x1024_1_0_0_1_n_n.lhsNonContracting by decide)]
  rfl
theorem dW_l1 (i : _) (q : dot_S800x256_S256x1024_S800x1024_1_0_0_1_n_n.contr.Idx) : (dot_S800x256_S256x1024_S800x1024_1_0_0_1_n_n.lhsIdx i q 1).val = (q ⟨0, by decide⟩).val :=
  dot_S800x256_S256x1024_S800x1024_1_0_0_1_n_n.lhsIdx_val_of_single rfl i q
theorem dW_r0 (i : _) (q : dot_S800x256_S256x1024_S800x1024_1_0_0_1_n_n.contr.Idx) : (dot_S800x256_S256x1024_S800x1024_1_0_0_1_n_n.rhsIdx i q 0).val = (q ⟨0, by decide⟩).val :=
  dot_S800x256_S256x1024_S800x1024_1_0_0_1_n_n.rhsIdx_val_of_single rfl i q
theorem dW_r1 (i : _) (q : dot_S800x256_S256x1024_S800x1024_1_0_0_1_n_n.contr.Idx) : (dot_S800x256_S256x1024_S800x1024_1_0_0_1_n_n.rhsIdx i q 1).val = (i 1).val := by
  unfold DotDims.rhsIdx
  rw [dif_neg (show ¬(1 : Fin S256x1024.rank) ∈ dot_S800x256_S256x1024_S800x1024_1_0_0_1_n_n.rhsBatch by decide), dif_pos (show (1 : Fin S256x1024.rank) ∈ dot_S800x256_S256x1024_S800x1024_1_0_0_1_n_n.rhsNonContracting by decide)]
  rfl
theorem dU_l0 (i : _) (q : dot_S800x256_S256x768_S800x768_1_0_0_1_n_n.contr.Idx) : (dot_S800x256_S256x768_S800x768_1_0_0_1_n_n.lhsIdx i q 0).val = (i 0).val := by
  unfold DotDims.lhsIdx
  rw [dif_neg (show ¬(0 : Fin S800x256.rank) ∈ dot_S800x256_S256x768_S800x768_1_0_0_1_n_n.lhsBatch by decide), dif_pos (show (0 : Fin S800x256.rank) ∈ dot_S800x256_S256x768_S800x768_1_0_0_1_n_n.lhsNonContracting by decide)]
  rfl
theorem dU_l1 (i : _) (q : dot_S800x256_S256x768_S800x768_1_0_0_1_n_n.contr.Idx) : (dot_S800x256_S256x768_S800x768_1_0_0_1_n_n.lhsIdx i q 1).val = (q ⟨0, by decide⟩).val :=
  dot_S800x256_S256x768_S800x768_1_0_0_1_n_n.lhsIdx_val_of_single rfl i q
theorem dU_r0 (i : _) (q : dot_S800x256_S256x768_S800x768_1_0_0_1_n_n.contr.Idx) : (dot_S800x256_S256x768_S800x768_1_0_0_1_n_n.rhsIdx i q 0).val = (q ⟨0, by decide⟩).val :=
  dot_S800x256_S256x768_S800x768_1_0_0_1_n_n.rhsIdx_val_of_single rfl i q
theorem dU_r1 (i : _) (q : dot_S800x256_S256x768_S800x768_1_0_0_1_n_n.contr.Idx) : (dot_S800x256_S256x768_S800x768_1_0_0_1_n_n.rhsIdx i q 1).val = (i 1).val := by
  unfold DotDims.rhsIdx
  rw [dif_neg (show ¬(1 : Fin S256x768.rank) ∈ dot_S800x256_S256x768_S800x768_1_0_0_1_n_n.rhsBatch by decide), dif_pos (show (1 : Fin S256x768.rank) ∈ dot_S800x256_S256x768_S800x768_1_0_0_1_n_n.rhsNonContracting by decide)]
  rfl
theorem dF_l0 (i : _) (q : dot_S800x256_S256x256_S800x256_1_0_0_1_n_n.contr.Idx) : (dot_S800x256_S256x256_S800x256_1_0_0_1_n_n.lhsIdx i q 0).val = (i 0).val := by
  unfold DotDims.lhsIdx
  rw [dif_neg (show ¬(0 : Fin S800x256.rank) ∈ dot_S800x256_S256x256_S800x256_1_0_0_1_n_n.lhsBatch by decide), dif_pos (show (0 : Fin S800x256.rank) ∈ dot_S800x256_S256x256_S800x256_1_0_0_1_n_n.lhsNonContracting by decide)]
  rfl
theorem dF_l1 (i : _) (q : dot_S800x256_S256x256_S800x256_1_0_0_1_n_n.contr.Idx) : (dot_S800x256_S256x256_S800x256_1_0_0_1_n_n.lhsIdx i q 1).val = (q ⟨0, by decide⟩).val :=
  dot_S800x256_S256x256_S800x256_1_0_0_1_n_n.lhsIdx_val_of_single rfl i q
theorem dF_r0 (i : _) (q : dot_S800x256_S256x256_S800x256_1_0_0_1_n_n.contr.Idx) : (dot_S800x256_S256x256_S800x256_1_0_0_1_n_n.rhsIdx i q 0).val = (q ⟨0, by decide⟩).val :=
  dot_S800x256_S256x256_S800x256_1_0_0_1_n_n.rhsIdx_val_of_single rfl i q
theorem dF_r1 (i : _) (q : dot_S800x256_S256x256_S800x256_1_0_0_1_n_n.contr.Idx) : (dot_S800x256_S256x256_S800x256_1_0_0_1_n_n.rhsIdx i q 1).val = (i 1).val := by
  unfold DotDims.rhsIdx
  rw [dif_neg (show ¬(1 : Fin S256x256.rank) ∈ dot_S800x256_S256x256_S800x256_1_0_0_1_n_n.rhsBatch by decide), dif_pos (show (1 : Fin S256x256.rank) ∈ dot_S800x256_S256x256_S800x256_1_0_0_1_n_n.rhsNonContracting by decide)]
  rfl

theorem matW (l : FVec Ideal S800x256 .bf16) (r : FVec Ideal S256x1024 .bf16) (p : Fin 800) (c : Fin 1024) :
    matmul dot_S800x256_S256x1024_S800x1024_1_0_0_1_n_n none l r (constant (F := Ideal) S800x1024 .f32 0x00000000#32) (ix2 p c) = ∑ k : Fin 256, l (ix2 p k) * r (ix2 k c) :=
  LibTiles.matmul_plain_apply dot_S800x256_S256x1024_S800x1024_1_0_0_1_n_n rfl rfl dW_l0 dW_l1 dW_r0 dW_r1 none l r p c
theorem matU (l : FVec Ideal S800x256 .bf16) (r : FVec Ideal S256x768 .bf16) (p : Fin 800) (c : Fin 768) :
    matmul dot_S800x256_S256x768_S800x768_1_0_0_1_n_n none l r (constant (F := Ideal) S800x768 .f32 0x00000000#32) (ix2 p c) = ∑ k : Fin 256, l (ix2 p k) * r (ix2 k c) :=
  LibTiles.matmul_plain_apply dot_S800x256_S256x768_S800x768_1_0_0_1_n_n rfl rfl dU_l0 dU_l1 dU_r0 dU_r1 none l r p c
theorem matF (l : FVec Ideal S800x256 .bf16) (r : FVec Ideal S256x256 .bf16) (p : Fin 800) (c : Fin 256) :
    matmul dot_S800x256_S256x256_S800x256_1_0_0_1_n_n none l r (constant (F := Ideal) S800x256 .f32 0x00000000#32) (ix2 p c) = ∑ k : Fin 256, l (ix2 p k) * r (ix2 k c) :=
  LibTiles.matmul_plain_apply dot_S800x256_S256x256_S800x256_1_0_0_1_n_n rfl rfl dF_l0 dF_l1 dF_r0 dF_r1 none l r p c

/-! ## The block's data as a node and as weights -/

variable (x0 : Vec Ideal S800x256 .f32) (x1 x2 : Vec Ideal S800x1024 .f32) (x3 : Vec Ideal S256x1024 .bf16)
  (x4 : Vec Ideal S256x768 .bf16) (x5 : Vec Ideal S256x256 .bf16) (x6 x7 x8 x9 : Vec Ideal S256 .f32)

/-- Column `o + j` of a row of `C` columns. -/
abbrev shiftCol {C : ℕ} (o : ℕ) (ho : o + 256 ≤ C) (j : Fin 256) : Fin C := ⟨o + j.val, by have := j.isLt; omega⟩

/-- The weights as the three weight blocks and the four bias blocks hold them. -/
def blockWeights : Weights where
  Wi j d := x3 (ix2 d (shiftCol (C := 1024) 0 (by decide) j))
  Wf j d := x3 (ix2 d (shiftCol (C := 1024) 256 (by decide) j))
  Wo j d := x3 (ix2 d (shiftCol (C := 1024) 512 (by decide) j))
  Wu j d := x3 (ix2 d (shiftCol (C := 1024) 768 (by decide) j))
  Ui j e := x4 (ix2 e (shiftCol (C := 768) 0 (by decide) j))
  Uo j e := x4 (ix2 e (shiftCol (C := 768) 256 (by decide) j))
  Uu j e := x4 (ix2 e (shiftCol (C := 768) 512 (by decide) j))
  Uf j e := x5 (ix2 e j)
  bi j := x6 (ix1 j)
  bf j := x7 (ix1 j)
  bo j := x8 (ix1 j)
  bu j := x9 (ix1 j)

/-- Row `p` of the three streamed blocks as a node: its features, and child `k`'s states in columns 256·k … 256·k+255. -/
def blockNode (p : Fin 800) : Node where
  x d := x0 (ix2 p d)
  h k e := x1 (ix2 p (shiftCol (C := 1024) (256 * k.val) (by have := k.isLt; omega) e))
  c k e := x2 (ix2 p (shiftCol (C := 1024) (256 * k.val) (by have := k.isLt; omega) e))

/-! ## The pieces, read at an index -/

theorem pay3_eq : k0_pay3 x1 = x1 := shapeCast_self x1 _
theorem pay4_eq : k0_pay4 x2 = x2 := shapeCast_self x2 _
theorem pay5_eq : k0_pay5 x5 = x5 := shapeCast_self x5 _

/-- The features times the stacked input weights, at `(p, c)`. -/
theorem pay6_apply (p : Fin 800) (c : Fin 1024) : k0_pay6 x0 x3 (ix2 p c) = ∑ d : Fin 256, x0 (ix2 p d) * x3 (ix2 d c) := by
  unfold k0_pay6
  rw [shapeCast_self]
  exact matW _ x3 p c

/-- A column block of that product: the features times one gate's input weights. -/
theorem proj_apply (o : ℕ) (ho : o + 256 ≤ 1024) (h : S800x1024.Slices ![0, o] S800x256) (p : Fin 800) (j : Fin 256) :
    extractStridedSlice S800x256 ![0, o] (k0_pay6 x0 x3) h (ix2 p j)
      = ∑ d : Fin 256, x0 (ix2 p d) * x3 (ix2 d (shiftCol (C := 1024) o ho j)) := by
  rw [LibTiles.sliceCols_apply o (k0_pay6 x0 x3) h p j (by have := j.isLt; omega)]
  exact pay6_apply x0 x3 p _

/-- A column block of a flattened child block: one child's state. -/
theorem kid_apply (x : Vec Ideal S800x1024 .f32) (o : ℕ) (ho : o + 256 ≤ 1024) (h : S800x1024.Slices ![0, o] S800x256) (p : Fin 800) (e : Fin 256) :
    extractStridedSlice S800x256 ![0, o] x h (ix2 p e) = x (ix2 p (shiftCol (C := 1024) o ho e)) :=
  LibTiles.sliceCols_apply o x h p e (by have := e.isLt; omega)

/-- The four children's hidden states added left to right: the node's summed hidden state. -/
theorem kids_sum_apply (p : Fin 800) (e : Fin 256) :
    addf (addf (addf (extractStridedSlice S800x256 ![0, 0] (k0_pay3 x1) slices_S800x1024_o0_0_S800x256)
        (extractStridedSlice S800x256 ![0, 256] (k0_pay3 x1) slices_S800x1024_o0_256_S800x256))
        (extractStridedSlice S800x256 ![0, 512] (k0_pay3 x1) slices_S800x1024_o0_512_S800x256))
        (extractStridedSlice S800x256 ![0, 768] (k0_pay3 x1) slices_S800x1024_o0_768_S800x256) (ix2 p e)
      = hsum (blockNode x0 x1 x2 p) e := by
  simp only [addf_apply, pay3_eq]
  rw [kid_apply x1 0 (by decide), kid_apply x1 256 (by decide), kid_apply x1 512 (by decide), kid_apply x1 768 (by decide)]
  exact LibTiles.sum4_nest (fun k => (blockNode x0 x1 x2 p).h k e)

/-- The summed hidden state times the stacked hidden weights, at `(p, c)`. -/
theorem pay7_apply (p : Fin 800) (c : Fin 768) :
    k0_pay7 x1 x4 (ix2 p c) = ∑ e : Fin 256, hsum (blockNode x0 x1 x2 p) e * x4 (ix2 e c) := by
  unfold k0_pay7
  rw [shapeCast_self]
  refine (matU _ x4 p c).trans (Finset.sum_congr rfl fun e _ => ?_)
  exact congrArg (· * x4 (ix2 e c)) (kids_sum_apply x0 x1 x2 p e)

/-- A column block of it: the summed hidden state times one gate's hidden weights. -/
theorem projSum_apply (o : ℕ) (ho : o + 256 ≤ 768) (h : S800x768.Slices ![0, o] S800x256) (p : Fin 800) (j : Fin 256) :
    extractStridedSlice S800x256 ![0, o] (k0_pay7 x1 x4) h (ix2 p j)
      = ∑ e : Fin 256, hsum (blockNode x0 x1 x2 p) e * x4 (ix2 e (shiftCol (C := 768) o ho j)) := by
  rw [LibTiles.sliceCols_apply o (k0_pay7 x1 x4) h p j (by have := j.isLt; omega)]
  exact pay7_apply x0 x1 x2 x4 p _

/-- One child's hidden state times the forget gate's hidden weights. -/
theorem projKid_apply (o : ℕ) (ho : o + 256 ≤ 1024) (h : S800x1024.Slices ![0, o] S800x256) (p : Fin 800) (j : Fin 256) :
    matmul dot_S800x256_S256x256_S800x256_1_0_0_1_n_n none (truncf .bf16 (extractStridedSlice S800x256 ![0, o] (k0_pay3 x1) h) bitsLt_bf16_f32) (k0_pay5 x5)
        (constant (F := Ideal) S800x256 .f32 0x00000000#32) (ix2 p j)
      = ∑ e : Fin 256, x1 (ix2 p (shiftCol (C := 1024) o ho e)) * x5 (ix2 e j) := by
  rw [pay3_eq, pay5_eq]
  refine (matF _ x5 p j).trans (Finset.sum_congr rfl fun e _ => ?_)
  exact congrArg (· * x5 (ix2 e j)) (kid_apply x1 o ho h p e)

/-- A bias laid out as a row and spread down the block. -/
theorem bias_apply (b : Vec Ideal S256 .f32) (p : Fin 800) (j : Fin 256) :
    broadcastTo S800x256 (shapeCast S1x256 b shapeCasts_S256_S1x256) broadcasts_S1x256_S800x256 (ix2 p j) = b (ix1 j) :=
  LibCols.row_spread_apply b shapeCasts_S256_S1x256 broadcasts_S1x256_S800x256 p j

/-! ## The gates, the cell state and the hidden state of row `p` -/

/-- The features times the forget gate's input weights. -/
theorem pay8_apply (p : Fin 800) (j : Fin 256) :
    k0_pay8 x0 x3 (ix2 p j) = ∑ d : Fin 256, (blockNode x0 x1 x2 p).x d * (blockWeights x3 x4 x5 x6 x7 x8 x9).Wf j d :=
  proj_apply x0 x3 256 (by decide) slices_S800x1024_o0_256_S800x256 p j
/-- The features times the candidate's input weights. -/
theorem pay9_apply (p : Fin 800) (j : Fin 256) :
    k0_pay9 x0 x3 (ix2 p j) = ∑ d : Fin 256, (blockNode x0 x1 x2 p).x d * (blockWeights x3 x4 x5 x6 x7 x8 x9).Wu j d :=
  proj_apply x0 x3 768 (by decide) slices_S800x1024_o0_768_S800x256 p j
/-- The summed hidden state times the output gate's hidden weights. -/
theorem pay10_apply (p : Fin 800) (j : Fin 256) :
    k0_pay10 x1 x4 (ix2 p j) = ∑ e : Fin 256, hsum (blockNode x0 x1 x2 p) e * (blockWeights x3 x4 x5 x6 x7 x8 x9).Uo j e :=
  projSum_apply x0 x1 x2 x4 256 (by decide) slices_S800x768_o0_256_S800x256 p j
/-- The summed hidden state times the candidate's hidden weights. -/
theorem pay11_apply (p : Fin 800) (j : Fin 256) :
    k0_pay11 x1 x4 (ix2 p j) = ∑ e : Fin 256, hsum (blockNode x0 x1 x2 p) e * (blockWeights x3 x4 x5 x6 x7 x8 x9).Uu j e :=
  projSum_apply x0 x1 x2 x4 512 (by decide) slices_S800x768_o0_512_S800x256 p j

/-- The input gate. -/
theorem pay12_apply (p : Fin 800) (j : Fin 256) :
    k0_pay12 x0 x1 x3 x4 x6 (ix2 p j) = Ideal.logistic (lin (blockWeights x3 x4 x5 x6 x7 x8 x9).Wi (blockWeights x3 x4 x5 x6 x7 x8 x9).Ui (blockWeights x3 x4 x5 x6 x7 x8 x9).bi (blockNode x0 x1 x2 p) j) := by
  unfold k0_pay12
  simp only [logistic, addf_apply, Ideal.logistic_def]
  rw [proj_apply x0 x3 0 (by decide), bias_apply x6, projSum_apply x0 x1 x2 x4 0 (by decide)]
  rfl

/-- The output gate's argument but for the hidden part. -/
theorem pay13_apply (p : Fin 800) (j : Fin 256) :
    k0_pay13 x0 x3 x8 (ix2 p j) = (∑ d : Fin 256, (blockNode x0 x1 x2 p).x d * (blockWeights x3 x4 x5 x6 x7 x8 x9).Wo j d) + (blockWeights x3 x4 x5 x6 x7 x8 x9).bo j := by
  unfold k0_pay13
  simp only [addf_apply]
  rw [proj_apply x0 x3 512 (by decide), bias_apply x8]
  rfl

set_option maxHeartbeats 1000000 in
/-- THE CELL STATE the body stores, at row `p` and feature `j`: the child-sum cell's, the four children's terms added
    one after another on top of input gate times candidate. -/
theorem cell_apply (p : Fin 800) (j : Fin 256) :
    k0_pay1 (k0_pay3 x1) (k0_pay4 x2) (k0_pay5 x5) (k0_pay8 x0 x3) (k0_pay9 x0 x3) (k0_pay11 x1 x4) x7 x9 (k0_pay12 x0 x1 x3 x4 x6) (ix2 p j) = cell (blockWeights x3 x4 x5 x6 x7 x8 x9) (blockNode x0 x1 x2 p) j := by
  unfold k0_pay1
  simp only [logistic, tanh, addf_apply, mulf_apply, Ideal.logistic_def, Ideal.tanh_def]
  rw [pay12_apply x0 x1 x2 x3 x4 x5 x6 x7 x8 x9, pay9_apply x0 x1 x2 x3 x4 x5 x6 x7 x8 x9, pay11_apply x0 x1 x2 x3 x4 x5 x6 x7 x8 x9,
    pay8_apply x0 x1 x2 x3 x4 x5 x6 x7 x8 x9, bias_apply x9, bias_apply x7,
    projKid_apply x1 x5 0 (by decide), projKid_apply x1 x5 256 (by decide), projKid_apply x1 x5 512 (by decide), projKid_apply x1 x5 768 (by decide),
    pay4_eq, kid_apply x2 0 (by decide), kid_apply x2 256 (by decide), kid_apply x2 512 (by decide), kid_apply x2 768 (by decide)]
  exact LibTiles.acc4_nest _ (fun k => forget (blockWeights x3 x4 x5 x6 x7 x8 x9) (blockNode x0 x1 x2 p) k j * (blockNode x0 x1 x2 p).c k j)

/-- THE HIDDEN STATE the body stores: the output gate times the hyperbolic tangent of that cell state. -/
theorem hidden_apply (p : Fin 800) (j : Fin 256) :
    k0_pay2 (k0_pay3 x1) (k0_pay4 x2) (k0_pay5 x5) (k0_pay8 x0 x3) (k0_pay9 x0 x3) (k0_pay10 x1 x4) (k0_pay11 x1 x4) x7 x9 (k0_pay12 x0 x1 x3 x4 x6) (k0_pay13 x0 x3 x8) (ix2 p j) = hidden (blockWeights x3 x4 x5 x6 x7 x8 x9) (blockNode x0 x1 x2 p) j := by
  unfold k0_pay2
  simp only [logistic, tanh, addf_apply, mulf_apply, Ideal.logistic_def, Ideal.tanh_def]
  rw [pay13_apply x0 x1 x2 x3 x4 x5 x6 x7 x8 x9, pay10_apply x0 x1 x2 x3 x4 x5 x6 x7 x8 x9, cell_apply x0 x1 x2 x3 x4 x5 x6 x7 x8 x9]
  rfl

end Cert.KernelIdeal.Block

end
-- ==== Proof.EntryArrays.lean ====
/-
  The arrays the tree-LSTM region's windows stage, as the region finds them, read at an index in terms of the launch
  arguments. The two flattened child arrays hold child `k`'s feature `e` of node `n` at `(n, 256·k + e)`. The stacked,
  transposed input weights hold gate `g`'s weight `[j, d]` at `(d, 256·g + j)` (gates in the order input, forget,
  output, candidate); the stacked, transposed hidden weights likewise (input, output, candidate); the forget gate's
  hidden weights transposed hold `[j, e]` at `(e, j)`. A change of float format is the identity at the extended
  reals. The node features and the four biases are staged as launched.
-/
import proofs.«126556_j63917703299457_2_alg».proof.Proof.IdealFrame
import proofs.«126556_j63917703299457_2_alg».proof.Proof.BlockValue
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.Entry

open Idealize.ShloMosaic Idealize.ShloMosaic.TcCoe Idealize.SL.Sem Idealize.ShloMosaic.StableHlo Idealize.ShloMosaic.ValueIdx
open Cert.KernelIdeal Cert.KernelIdeal.Gen Cert.KernelIdeal.Hand Cert.KernelIdeal.Block

variable (m : (ℓ : Loc nD τ sig) → Buf (Elt Ideal) ℓ) (c : Dev nD)

/-! ## The flattened child arrays -/

theorem flatH_eq : (atEntry m c main_v0 : S100000x1024.Idx → EReal)
    = shapeCast S100000x1024 (m ((c : Thread nD τ).loc main_arg1)) shapeCasts_S100000x4x256_S100000x1024 := by
  dsimp only [atEntry, hostOps0]
  after_results
  rfl

theorem flatC_eq : (atEntry m c main_v1 : S100000x1024.Idx → EReal)
    = shapeCast S100000x1024 (m ((c : Thread nD τ).loc main_arg2)) shapeCasts_S100000x4x256_S100000x1024 := by
  dsimp only [atEntry, hostOps0]
  after_results
  rfl

/-- Node `n`, child `k`, feature `e` sits at column 256·k + e of row `n`: the same row-major position. -/
theorem flat_pos (n : Fin 100000) (k : Fin 4) (e : Fin 256) :
    (S100000x4x256.rowMajor (ix3 n k e)).val
      = (S100000x1024.rowMajor (ix2 n (shiftCol (C := 1024) (256 * k.val) (by have := k.isLt; omega) e))).val := by
  rw [Shape.rowMajor_val_three, Shape.rowMajor_val_two]
  show (n.val * 4 + k.val) * 256 + e.val = n.val * 1024 + (256 * k.val + e.val)
  omega

theorem flatH_apply (n : Fin 100000) (k : Fin 4) (e : Fin 256) :
    atEntry m c main_v0 (ix2 n (shiftCol (C := 1024) (256 * k.val) (by have := k.isLt; omega) e)) = (m ((c : Thread nD τ).loc main_arg1)) (ix3 n k e) :=
  (congrFun (flatH_eq m c) _).trans (shapeCast_apply _ shapeCasts_S100000x4x256_S100000x1024 _ (ix3 n k e) (flat_pos n k e))

theorem flatC_apply (n : Fin 100000) (k : Fin 4) (e : Fin 256) :
    atEntry m c main_v1 (ix2 n (shiftCol (C := 1024) (256 * k.val) (by have := k.isLt; omega) e)) = (m ((c : Thread nD τ).loc main_arg2)) (ix3 n k e) :=
  (congrFun (flatC_eq m c) _).trans (shapeCast_apply _ shapeCasts_S100000x4x256_S100000x1024 _ (ix3 n k e) (flat_pos n k e))

/-! ## The stacked, transposed weights -/

theorem stackW_eq : (atEntry m c main_v4 : S256x1024.Idx → EReal)
    = (truncf (F := Ideal) .bf16 (transpose S256x1024 [1, 0] (concatenate S1024x256 0
        [⟨S256x256, (m ((c : Thread nD τ).loc main_arg3) : S256x256.Idx → Ideal .f32)⟩, ⟨S256x256, (m ((c : Thread nD τ).loc main_arg5) : S256x256.Idx → Ideal .f32)⟩, ⟨S256x256, (m ((c : Thread nD τ).loc main_arg7) : S256x256.Idx → Ideal .f32)⟩, ⟨S256x256, (m ((c : Thread nD τ).loc main_arg9) : S256x256.Idx → Ideal .f32)⟩]
        concatenates_S256x256_S256x256_S256x256_S256x256_S1024x256_d0) transposes_S1024x256_S256x1024_1_0) bitsLt_bf16_f32 : S256x1024.Idx → EReal) := by
  dsimp only [atEntry, hostOps0]
  after_results_simp
  simp (disch := decide) only [Matrix.cons_val, reshape_result_ne', unary_result_ne', nary_result_ne']
  rfl

theorem stackU_eq : (atEntry m c main_v7 : S256x768.Idx → EReal)
    = (truncf (F := Ideal) .bf16 (transpose S256x768 [1, 0] (concatenate S768x256 0
        [⟨S256x256, (m ((c : Thread nD τ).loc main_arg11) : S256x256.Idx → Ideal .f32)⟩, ⟨S256x256, (m ((c : Thread nD τ).loc main_arg13) : S256x256.Idx → Ideal .f32)⟩, ⟨S256x256, (m ((c : Thread nD τ).loc main_arg14) : S256x256.Idx → Ideal .f32)⟩]
        concatenates_S256x256_S256x256_S256x256_S768x256_d0) transposes_S768x256_S256x768_1_0) bitsLt_bf16_f32 : S256x768.Idx → EReal) := by
  dsimp only [atEntry, hostOps0]
  after_results_simp
  simp (disch := decide) only [Matrix.cons_val, reshape_result_ne', unary_result_ne', nary_result_ne']
  rfl

theorem forgetU_eq : (atEntry m c main_v9 : S256x256.Idx → EReal)
    = (truncf (F := Ideal) .bf16 (transpose S256x256 [1, 0] (m ((c : Thread nD τ).loc main_arg12) : S256x256.Idx → Ideal .f32) transposes_S256x256_S256x256_1_0) bitsLt_bf16_f32 : S256x256.Idx → EReal) := by
  dsimp only [atEntry, hostOps0]
  after_results

/-- The input gate's input weights. -/
theorem stackW_0 (d : Fin 256) (j : Fin 256) :
    atEntry m c main_v4 (ix2 d (shiftCol (C := 1024) 0 (by decide) j)) = (m ((c : Thread nD τ).loc main_arg3)) (ix2 j d) := by
  refine (congrFun (stackW_eq m c) _).trans ?_
  refine (truncf_apply _ bitsLt_bf16_f32 _).trans ?_
  refine (transpose_apply [1, 0] _ transposes_S1024x256_S256x1024_1_0 (ix2 d (shiftCol (C := 1024) 0 (by decide) j))
    (ix2 (shiftCol (C := 1024) 0 (by decide) j) d) (fun b => match b with | ⟨0, _⟩ => rfl | ⟨1, _⟩ => rfl)).trans ?_
  exact concatenate_apply_piece 0 _ _ (ix2 (shiftCol (C := 1024) 0 (by decide) j) d) 0 (by show 0 < 4; omega)
    S256x256 _ rfl rfl 0 rfl (ix2 j d)
    (fun b hb => match b with
      | ⟨0, _⟩ => absurd rfl hb
      | ⟨1, _⟩ => rfl)
    rfl

/-- The forget gate's input weights. -/
theorem stackW_1 (d : Fin 256) (j : Fin 256) :
    atEntry m c main_v4 (ix2 d (shiftCol (C := 1024) 256 (by decide) j)) = (m ((c : Thread nD τ).loc main_arg5)) (ix2 j d) := by
  refine (congrFun (stackW_eq m c) _).trans ?_
  refine (truncf_apply _ bitsLt_bf16_f32 _).trans ?_
  refine (transpose_apply [1, 0] _ transposes_S1024x256_S256x1024_1_0 (ix2 d (shiftCol (C := 1024) 256 (by decide) j))
    (ix2 (shiftCol (C := 1024) 256 (by decide) j) d) (fun b => match b with | ⟨0, _⟩ => rfl | ⟨1, _⟩ => rfl)).trans ?_
  exact concatenate_apply_piece 0 _ _ (ix2 (shiftCol (C := 1024) 256 (by decide) j) d) 1 (by show 1 < 4; omega)
    S256x256 _ rfl rfl 256 rfl (ix2 j d)
    (fun b hb => match b with
      | ⟨0, _⟩ => absurd rfl hb
      | ⟨1, _⟩ => rfl)
    rfl

/-- The output gate's input weights. -/
theorem stackW_2 (d : Fin 256) (j : Fin 256) :
    atEntry m c main_v4 (ix2 d (shiftCol (C := 1024) 512 (by decide) j)) = (m ((c : Thread nD τ).loc main_arg7)) (ix2 j d) := by
  refine (congrFun (stackW_eq m c) _).trans ?_
  refine (truncf_apply _ bitsLt_bf16_f32 _).trans ?_
  refine (transpose_apply [1, 0] _ transposes_S1024x256_S256x1024_1_0 (ix2 d (shiftCol (C := 1024) 512 (by decide) j))
    (ix2 (shiftCol (C := 1024) 512 (by decide) j) d) (fun b => match b with | ⟨0, _⟩ => rfl | ⟨1, _⟩ => rfl)).trans ?_
  exact concatenate_apply_piece 0 _ _ (ix2 (shiftCol (C := 1024) 512 (by decide) j) d) 2 (by show 2 < 4; omega)
    S256x256 _ rfl rfl 512 rfl (ix2 j d)
    (fun b hb => match b with
      | ⟨0, _⟩ => absurd rfl hb
      | ⟨1, _⟩ => rfl)
    rfl

/-- The candidate's input weights. -/
theorem stackW_3 (d : Fin 256) (j : Fin 256) :
    atEntry m c main_v4 (ix2 d (shiftCol (C := 1024) 768 (by decide) j)) = (m ((c : Thread nD τ).loc main_arg9)) (ix2 j d) := by
  refine (congrFun (stackW_eq m c) _).trans ?_
  refine (truncf_apply _ bitsLt_bf16_f32 _).trans ?_
  refine (transpose_apply [1, 0] _ transposes_S1024x256_S256x1024_1_0 (ix2 d (shiftCol (C := 1024) 768 (by decide) j))
    (ix2 (shiftCol (C := 1024) 768 (by decide) j) d) (fun b => match b with | ⟨0, _⟩ => rfl | ⟨1, _⟩ => rfl)).trans ?_
  exact concatenate_apply_piece 0 _ _ (ix2 (shiftCol (C := 1024) 768 (by decide) j) d) 3 (by show 3 < 4; omega)
    S256x256 _ rfl rfl 768 rfl (ix2 j d)
    (fun b hb => match b with
      | ⟨0, _⟩ => absurd rfl hb
      | ⟨1, _⟩ => rfl)
    rfl

/-- The input gate's hidden weights. -/
theorem stackU_0 (d : Fin 256) (j : Fin 256) :
    atEntry m c main_v7 (ix2 d (shiftCol (C := 768) 0 (by decide) j)) = (m ((c : Thread nD τ).loc main_arg11)) (ix2 j d) := by
  refine (congrFun (stackU_eq m c) _).trans ?_
  refine (truncf_apply _ bitsLt_bf16_f32 _).trans ?_
  refine (transpose_apply [1, 0] _ transposes_S768x256_S256x768_1_0 (ix2 d (shiftCol (C := 768) 0 (by decide) j))
    (ix2 (shiftCol (C := 768) 0 (by decide) j) d) (fun b => match b with | ⟨0, _⟩ => rfl | ⟨1, _⟩ => rfl)).trans ?_
  exact concatenate_apply_piece 0 _ _ (ix2 (shiftCol (C := 768) 0 (by decide) j) d) 0 (by show 0 < 3; omega)
    S256x256 _ rfl rfl 0 rfl (ix2 j d)
    (fun b hb => match b with
      | ⟨0, _⟩ => absurd rfl hb
      | ⟨1, _⟩ => rfl)
    rfl

/-- The output gate's hidden weights. -/
theorem stackU_1 (d : Fin 256) (j : Fin 256) :
    atEntry m c main_v7 (ix2 d (shiftCol (C := 768) 256 (by decide) j)) = (m ((c : Thread nD τ).loc main_arg13)) (ix2 j d) := by
  refine (congrFun (stackU_eq m c) _).trans ?_
  refine (truncf_apply _ bitsLt_bf16_f32 _).trans ?_
  refine (transpose_apply [1, 0] _ transposes_S768x256_S256x768_1_0 (ix2 d (shiftCol (C := 768) 256 (by decide) j))
    (ix2 (shiftCol (C := 768) 256 (by decide) j) d) (fun b => match b with | ⟨0, _⟩ => rfl | ⟨1, _⟩ => rfl)).trans ?_
  exact concatenate_apply_piece 0 _ _ (ix2 (shiftCol (C := 768) 256 (by decide) j) d) 1 (by show 1 < 3; omega)
    S256x256 _ rfl rfl 256 rfl (ix2 j d)
    (fun b hb => match b with
      | ⟨0, _⟩ => absurd rfl hb
      | ⟨1, _⟩ => rfl)
    rfl

/-- The candidate's hidden weights. -/
theorem stackU_2 (d : Fin 256) (j : Fin 256) :
    atEntry m c main_v7 (ix2 d (shiftCol (C := 768) 512 (by decide) j)) = (m ((c : Thread nD τ).loc main_arg14)) (ix2 j d) := by
  refine (congrFun (stackU_eq m c) _).trans ?_
  refine (truncf_apply _ bitsLt_bf16_f32 _).trans ?_
  refine (transpose_apply [1, 0] _ transposes_S768x256_S256x768_1_0 (ix2 d (shiftCol (C := 768) 512 (by decide) j))
    (ix2 (shiftCol (C := 768) 512 (by decide) j) d) (fun b => match b with | ⟨0, _⟩ => rfl | ⟨1, _⟩ => rfl)).trans ?_
  exact concatenate_apply_piece 0 _ _ (ix2 (shiftCol (C := 768) 512 (by decide) j) d) 2 (by show 2 < 3; omega)
    S256x256 _ rfl rfl 512 rfl (ix2 j d)
    (fun b hb => match b with
      | ⟨0, _⟩ => absurd rfl hb
      | ⟨1, _⟩ => rfl)
    rfl

/-- The forget gate's hidden weights. -/
theorem forgetU_apply (e : Fin 256) (j : Fin 256) :
    atEntry m c main_v9 (ix2 e j) = (m ((c : Thread nD τ).loc main_arg12)) (ix2 j e) := by
  refine (congrFun (forgetU_eq m c) _).trans ?_
  refine (truncf_apply _ bitsLt_bf16_f32 _).trans ?_
  exact transpose_apply [1, 0] _ transposes_S256x256_S256x256_1_0 (ix2 e j) (ix2 j e) (fun b => match b with | ⟨0, _⟩ => rfl | ⟨1, _⟩ => rfl)

end Cert.KernelIdeal.Entry

end
-- ==== Proof.KernelValue.lean ====
/-
  From blocks to arrays, for the tree-LSTM region at the extended reals. Point `t` of the 125-point grid writes back,
  into rows 800·t … 800·t+799 of each result array, what the body left in the output block; by the block-level reading
  of the body that is the hidden state, resp. the cell state, of nodes 800·t … 800·t+799 under the weights as launched
  — the streamed windows' blocks are those rows of their arrays, the weight and bias windows' blocks the whole arrays,
  and the arrays the host laid out before the region read back at an index give the launch arguments. The 125 row
  blocks tile the 100000 rows, so after the run each result array is the cell's output at every node.
-/
import proofs.«126556_j63917703299457_2_alg».proof.Proof.IdealFrame
import proofs.«126556_j63917703299457_2_alg».proof.Proof.BlockValue
import proofs.«126556_j63917703299457_2_alg».proof.Proof.EntryArrays
import proofs.«126556_j63917703299457_2_alg».proof.Proof.Spec
import Idealize.ShloMosaic.Lib.Pipeline.Value
import Idealize.ShloMosaic.Lib.ValueIdx

set_option maxRecDepth 16384

noncomputable section

namespace Cert.KernelIdeal.Whole

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand Cert.KernelIdeal.Block Cert.KernelIdeal.Entry Cert.TreeCell

variable (m : (ℓ : Loc nD τ sig) → Buf (Elt Ideal) ℓ) (ρ : Dev nD → PrngReg)

/-! ## The specification at the launch arguments -/

/-- The weights as launched. -/
def argWeights (c : Dev nD) : Weights where
  Wi j d := (m ((c : Thread nD τ).loc main_arg3)) (ix2 j d)
  bi j := (m ((c : Thread nD τ).loc main_arg4)) (ix1 j)
  Wf j d := (m ((c : Thread nD τ).loc main_arg5)) (ix2 j d)
  bf j := (m ((c : Thread nD τ).loc main_arg6)) (ix1 j)
  Wo j d := (m ((c : Thread nD τ).loc main_arg7)) (ix2 j d)
  bo j := (m ((c : Thread nD τ).loc main_arg8)) (ix1 j)
  Wu j d := (m ((c : Thread nD τ).loc main_arg9)) (ix2 j d)
  bu j := (m ((c : Thread nD τ).loc main_arg10)) (ix1 j)
  Ui j e := (m ((c : Thread nD τ).loc main_arg11)) (ix2 j e)
  Uf j e := (m ((c : Thread nD τ).loc main_arg12)) (ix2 j e)
  Uo j e := (m ((c : Thread nD τ).loc main_arg13)) (ix2 j e)
  Uu j e := (m ((c : Thread nD τ).loc main_arg14)) (ix2 j e)

/-- Node `n` of the launch arguments. -/
def argNode (c : Dev nD) (n : Fin 100000) : Node where
  x d := (m ((c : Thread nD τ).loc main_arg0)) (ix2 n d)
  h k e := (m ((c : Thread nD τ).loc main_arg1)) (ix3 n k e)
  c k e := (m ((c : Thread nD τ).loc main_arg2)) (ix3 n k e)

/-- The cell-state array: the cell's new cell state at every node and feature. -/
def cellArr (c : Dev nD) : S100000x256.Idx → EReal := fun i => cell (argWeights m c) (argNode m c (i 0)) (i 1)
/-- The hidden-state array. -/
def hiddenArr (c : Dev nD) : S100000x256.Idx → EReal := fun i => hidden (argWeights m c) (argNode m c (i 0)) (i 1)

/-! ## The windows' index maps over the grid -/

theorem hz2 : (![0, 0] : Fin 2 → Nat) = fun _ => 0 := funext fun a => by fin_cases a <;> rfl
theorem hz1 : (![0] : Fin 1 → Nat) = fun _ => 0 := funext fun a => by fin_cases a; rfl

/-- The five streamed windows take block `t` of the rows at point `t`; the seven others their whole array. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ win0_6.index t (0 : Fin 1) = 0 ∧ win0_7.index t (0 : Fin 1) = 0 ∧ win0_8.index t (0 : Fin 1) = 0 ∧ win0_9.index t (0 : Fin 1) = 0
    ∧ (win0_10.index t (0 : Fin 2) = t.val ∧ win0_10.index t (1 : Fin 2) = 0)
    ∧ (win0_11.index t (0 : Fin 2) = t.val ∧ win0_11.index t (1 : Fin 2) = 0) :=
  (by decide +kernel : ∀ t : Fin grid0.N, _)

theorem t_lt (t : Fin cfg0.N) : t.val < 125 := Nat.lt_of_lt_of_eq t.isLt N_0

/-- Row `p` of block `t`. -/
abbrev rowOf (t : Fin cfg0.N) (p : Fin 800) : Fin 100000 := ⟨800 * t.val + p.val, by have := t_lt t; have := p.isLt; omega⟩

/-! ## Each window's block read at an index -/

/-- The node-feature block is rows 800·t … of the features as launched. -/
theorem blk0_apply (c : Dev nD) (t : Fin cfg0.N) (p : Fin 800) (d : Fin 256) :
    blockAt m c 0 t (ix2 p d) = (m ((c : Thread nD τ).loc main_arg0)) (ix2 (rowOf t p) d) := by
  obtain ⟨⟨e0, e1⟩, -⟩ := idx_facts t
  show atEntry m c main_arg0 (((cfg0.win 0).blk t).view.emb (ix2 p d)) = _
  rw [kept m c main_arg0 (by decide)]
  refine congrArg _ (funext fun a => Fin.ext ?_)
  match a with
  | ⟨0, _⟩ => show win0_0.index t (0 : Fin 2) * 800 + 1 * p.val = 800 * t.val + p.val; omega
  | ⟨1, _⟩ => show win0_0.index t (1 : Fin 2) * 256 + 1 * d.val = d.val; omega

/-- The flattened child-hidden block: child `k`'s feature `e` of node 800·t + p. -/
theorem blk1_apply (c : Dev nD) (t : Fin cfg0.N) (p : Fin 800) (k : Fin 4) (e : Fin 256) :
    blockAt m c 1 t (ix2 p (shiftCol (C := 1024) (256 * k.val) (by have := k.isLt; omega) e)) = (m ((c : Thread nD τ).loc main_arg1)) (ix3 (rowOf t p) k e) := by
  obtain ⟨-, ⟨e0, e1⟩, -⟩ := idx_facts t
  show atEntry m c main_v0 (((cfg0.win 1).blk t).view.emb (ix2 p (shiftCol (C := 1024) (256 * k.val) (by have := k.isLt; omega) e))) = _
  rw [← flatH_apply m c (rowOf t p) k e]
  refine congrArg _ (funext fun a => Fin.ext ?_)
  match a with
  | ⟨0, _⟩ => show win0_1.index t (0 : Fin 2) * 800 + 1 * p.val = 800 * t.val + p.val; omega
  | ⟨1, _⟩ => show win0_1.index t (1 : Fin 2) * 1024 + 1 * (256 * k.val + e.val) = 256 * k.val + e.val; omega

/-- The flattened child-cell block likewise. -/
theorem blk2_apply (c : Dev nD) (t : Fin cfg0.N) (p : Fin 800) (k : Fin 4) (e : Fin 256) :
    blockAt m c 2 t (ix2 p (shiftCol (C := 1024) (256 * k.val) (by have := k.isLt; omega) e)) = (m ((c : Thread nD τ).loc main_arg2)) (ix3 (rowOf t p) k e) := by
  obtain ⟨-, -, ⟨e0, e1⟩, -⟩ := idx_facts t
  show atEntry m c main_v1 (((cfg0.win 2).blk t).view.emb (ix2 p (shiftCol (C := 1024) (256 * k.val) (by have := k.isLt; omega) e))) = _
  rw [← flatC_apply m c (rowOf t p) k e]
  refine congrArg _ (funext fun a => Fin.ext ?_)
  match a with
  | ⟨0, _⟩ => show win0_2.index t (0 : Fin 2) * 800 + 1 * p.val = 800 * t.val + p.val; omega
  | ⟨1, _⟩ => show win0_2.index t (1 : Fin 2) * 1024 + 1 * (256 * k.val + e.val) = 256 * k.val + e.val; omega

/-- The stacked input-weight block is the whole stacked array. -/
theorem blk3_apply (c : Dev nD) (t : Fin cfg0.N) (y : S256x1024.Idx) : blockAt m c 3 t y = atEntry m c main_v4 y := by
  obtain ⟨-, -, -, ⟨e0, e1⟩, -⟩ := idx_facts t
  show atEntry m c main_v4 (((cfg0.win 3).blk t).view.emb y) = _
  refine congrArg _ (funext fun a => Fin.ext ?_)
  match a with
  | ⟨0, _⟩ => show win0_3.index t (0 : Fin 2) * 256 + 1 * (y 0).val = (y 0).val; omega
  | ⟨1, _⟩ => show win0_3.index t (1 : Fin 2) * 1024 + 1 * (y 1).val = (y 1).val; omega

theorem blk4_apply (c : Dev nD) (t : Fin cfg0.N) (y : S256x768.Idx) : blockAt m c 4 t y = atEntry m c main_v7 y := by
  obtain ⟨-, -, -, -, ⟨e0, e1⟩, -⟩ := idx_facts t
  show atEntry m c main_v7 (((cfg0.win 4).blk t).view.emb y) = _
  refine congrArg _ (funext fun a => Fin.ext ?_)
  match a with
  | ⟨0, _⟩ => show win0_4.index t (0 : Fin 2) * 256 + 1 * (y 0).val = (y 0).val; omega
  | ⟨1, _⟩ => show win0_4.index t (1 : Fin 2) * 768 + 1 * (y 1).val = (y 1).val; omega

theorem blk5_apply (c : Dev nD) (t : Fin cfg0.N) (y : S256x256.Idx) : blockAt m c 5 t y = atEntry m c main_v9 y := by
  obtain ⟨-, -, -, -, -, ⟨e0, e1⟩, -⟩ := idx_facts t
  show atEntry m c main_v9 (((cfg0.win 5).blk t).view.emb y) = _
  refine congrArg _ (funext fun a => Fin.ext ?_)
  match a with
  | ⟨0, _⟩ => show win0_5.index t (0 : Fin 2) * 256 + 1 * (y 0).val = (y 0).val; omega
  | ⟨1, _⟩ => show win0_5.index t (1 : Fin 2) * 256 + 1 * (y 1).val = (y 1).val; omega

theorem blk6_apply (c : Dev nD) (t : Fin cfg0.N) (j : Fin 256) : blockAt m c 6 t (ix1 j) = (m ((c : Thread nD τ).loc main_arg4)) (ix1 j) := by
  obtain ⟨-, -, -, -, -, -, e6, e7, e8, e9, -⟩ := idx_facts t
  show atEntry m c main_arg4 (((cfg0.win 6).blk t).view.emb (ix1 j)) = _
  rw [kept m c main_arg4 (by decide)]
  refine congrArg _ (funext fun a => Fin.ext ?_)
  match a with
  | ⟨0, _⟩ => show win0_6.index t (0 : Fin 1) * 256 + 1 * j.val = j.val; omega

theorem blk7_apply (c : Dev nD) (t : Fin cfg0.N) (j : Fin 256) : blockAt m c 7 t (ix1 j) = (m ((c : Thread nD τ).loc main_arg6)) (ix1 j) := by
  obtain ⟨-, -, -, -, -, -, e6, e7, e8, e9, -⟩ := idx_facts t
  show atEntry m c main_arg6 (((cfg0.win 7).blk t).view.emb (ix1 j)) = _
  rw [kept m c main_arg6 (by decide)]
  refine congrArg _ (funext fun a => Fin.ext ?_)
  match a with
  | ⟨0, _⟩ => show win0_7.index t (0 : Fin 1) * 256 + 1 * j.val = j.val; omega

theorem blk8_apply (c : Dev nD) (t : Fin cfg0.N) (j : Fin 256) : blockAt m c 8 t (ix1 j) = (m ((c : Thread nD τ).loc main_arg8)) (ix1 j) := by
  obtain ⟨-, -, -, -, -, -, e6, e7, e8, e9, -⟩ := idx_facts t
  show atEntry m c main_arg8 (((cfg0.win 8).blk t).view.emb (ix1 j)) = _
  rw [kept m c main_arg8 (by decide)]
  refine congrArg _ (funext fun a => Fin.ext ?_)
  match a with
  | ⟨0, _⟩ => show win0_8.index t (0 : Fin 1) * 256 + 1 * j.val = j.val; omega

theorem blk9_apply (c : Dev nD) (t : Fin cfg0.N) (j : Fin 256) : blockAt m c 9 t (ix1 j) = (m ((c : Thread nD τ).loc main_arg10)) (ix1 j) := by
  obtain ⟨-, -, -, -, -, -, e6, e7, e8, e9, -⟩ := idx_facts t
  show atEntry m c main_arg10 (((cfg0.win 9).blk t).view.emb (ix1 j)) = _
  rw [kept m c main_arg10 (by decide)]
  refine congrArg _ (funext fun a => Fin.ext ?_)
  match a with
  | ⟨0, _⟩ => show win0_9.index t (0 : Fin 1) * 256 + 1 * j.val = j.val; omega

/-! ## The block's weights and nodes are the launch arguments' -/

theorem weights_at (c : Dev nD) (t : Fin cfg0.N) :
    blockWeights (blockAt m c 3 t) (blockAt m c 4 t) (blockAt m c 5 t) (blockAt m c 6 t) (blockAt m c 7 t) (blockAt m c 8 t) (blockAt m c 9 t)
      = argWeights m c := by
  unfold blockWeights argWeights
  congr 1
  · funext j d; exact (blk3_apply m c t _).trans (stackW_0 m c d j)
  · funext j d; exact (blk3_apply m c t _).trans (stackW_1 m c d j)
  · funext j d; exact (blk3_apply m c t _).trans (stackW_2 m c d j)
  · funext j d; exact (blk3_apply m c t _).trans (stackW_3 m c d j)
  · funext j e; exact (blk4_apply m c t _).trans (stackU_0 m c e j)
  · funext j e; exact (blk5_apply m c t _).trans (forgetU_apply m c e j)
  · funext j e; exact (blk4_apply m c t _).trans (stackU_1 m c e j)
  · funext j e; exact (blk4_apply m c t _).trans (stackU_2 m c e j)
  · funext j; exact blk6_apply m c t j
  · funext j; exact blk7_apply m c t j
  · funext j; exact blk8_apply m c t j
  · funext j; exact blk9_apply m c t j

theorem node_at (c : Dev nD) (t : Fin cfg0.N) (p : Fin 800) :
    blockNode (blockAt m c 0 t) (blockAt m c 1 t) (blockAt m c 2 t) p = argNode m c (rowOf t p) := by
  unfold blockNode argNode
  congr 1
  · funext d; exact blk0_apply m c t p d
  · funext k e; exact blk1_apply m c t p k e
  · funext k e; exact blk2_apply m c t p k e

/-! ## What each point writes back -/

/-- Row `p`, feature `j` of the hidden-state block sits at row 800·t + p of the result array. -/
theorem out_emb10 (t : Fin cfg0.N) (p : Fin 800) (j : Fin 256) :
    ((cfg0.win 10).blk t).view.emb (ix2 p j) = (ix2 (rowOf t p) j : S100000x256.Idx) := by
  obtain ⟨-, -, -, -, -, -, -, -, -, -, ⟨a0, a1⟩, -⟩ := idx_facts t
  refine funext fun a => Fin.ext ?_
  match a with
  | ⟨0, _⟩ => show win0_10.index t (0 : Fin 2) * 800 + 1 * p.val = 800 * t.val + p.val; omega
  | ⟨1, _⟩ => show win0_10.index t (1 : Fin 2) * 256 + 1 * j.val = j.val; omega

/-- The cell-state block likewise. -/
theorem out_emb11 (t : Fin cfg0.N) (p : Fin 800) (j : Fin 256) :
    ((cfg0.win 11).blk t).view.emb (ix2 p j) = (ix2 (rowOf t p) j : S100000x256.Idx) := by
  obtain ⟨-, -, -, -, -, -, -, -, -, -, -, ⟨b0, b1⟩⟩ := idx_facts t
  refine funext fun a => Fin.ext ?_
  match a with
  | ⟨0, _⟩ => show win0_11.index t (0 : Fin 2) * 800 + 1 * p.val = 800 * t.val + p.val; omega
  | ⟨1, _⟩ => show win0_11.index t (1 : Fin 2) * 256 + 1 * j.val = j.val; omega

set_option maxHeartbeats 1000000 in
/-- Point `t` writes back block `t` of the cell-state array. -/
theorem flushed_cell (c : Dev nD) (t : Fin cfg0.N) :
    (dats m 0 c).flushed 11 t = ((cfg0.win 11).blk t).view.read (Elt Ideal) (cellArr m c) := by
  show (cfg0.win 11).cut (grid0.coords t) ((dats m 0 c).after 11 t) = _
  rw [after11]
  unfold cellOut
  rw [View.canon_unit_zero hz2]
  simp only [View.ld_unit_zero (S := S800x256) hz2, View.ld_unit_zero (S := S800x1024) hz2, View.ld_unit_zero (S := S256x1024) hz2,
    View.ld_unit_zero (S := S256x768) hz2, View.ld_unit_zero (S := S256x256) hz2, View.ld_unit_zero (S := S256) hz1]
  funext y
  obtain ⟨p, j, rfl⟩ : ∃ (p : Fin 800) (j : Fin 256), y = ix2 p j := ⟨y 0, y 1, eq_ix2 y⟩
  refine (cell_apply (blockAt m c 0 t) (blockAt m c 1 t) (blockAt m c 2 t) (blockAt m c 3 t) (blockAt m c 4 t) (blockAt m c 5 t) (blockAt m c 6 t) (blockAt m c 7 t) (blockAt m c 8 t) (blockAt m c 9 t) p j).trans ?_
  rw [weights_at m c t, node_at m c t p]
  show _ = cellArr m c (((cfg0.win 11).blk t).view.emb (ix2 p j))
  rw [out_emb11 t p j]
  rfl

set_option maxHeartbeats 1000000 in
/-- Point `t` writes back block `t` of the hidden-state array. -/
theorem flushed_hidden (c : Dev nD) (t : Fin cfg0.N) :
    (dats m 0 c).flushed 10 t = ((cfg0.win 10).blk t).view.read (Elt Ideal) (hiddenArr m c) := by
  show (cfg0.win 10).cut (grid0.coords t) ((dats m 0 c).after 10 t) = _
  rw [after10]
  unfold hiddenOut
  rw [View.canon_unit_zero hz2]
  simp only [View.ld_unit_zero (S := S800x256) hz2, View.ld_unit_zero (S := S800x1024) hz2, View.ld_unit_zero (S := S256x1024) hz2,
    View.ld_unit_zero (S := S256x768) hz2, View.ld_unit_zero (S := S256x256) hz2, View.ld_unit_zero (S := S256) hz1]
  funext y
  obtain ⟨p, j, rfl⟩ : ∃ (p : Fin 800) (j : Fin 256), y = ix2 p j := ⟨y 0, y 1, eq_ix2 y⟩
  refine (hidden_apply (blockAt m c 0 t) (blockAt m c 1 t) (blockAt m c 2 t) (blockAt m c 3 t) (blockAt m c 4 t) (blockAt m c 5 t) (blockAt m c 6 t) (blockAt m c 7 t) (blockAt m c 8 t) (blockAt m c 9 t) p j).trans ?_
  rw [weights_at m c t, node_at m c t p]
  show _ = hiddenArr m c (((cfg0.win 10).blk t).view.emb (ix2 p j))
  rw [out_emb10 t p j]
  rfl

/-! ## The 125 row blocks tile the result arrays -/

theorem mem_blk10 (t : Fin cfg0.N) (i : S100000x256.Idx) :
    i ∈ ((cfg0.win 10).blk t).view.set ↔ ∀ a : Fin 2, win0_10.index t a * S800x256.size a ≤ (i a).val ∧ (i a).val < win0_10.index t a * S800x256.size a + S800x256.size a := by
  show i ∈ ((View.whole main_v10_0).slice (win0_10.rect t)).set ↔ _
  rw [View.set_slice_whole, Rect.mem_set_unit]
  exact Iff.rfl

theorem mem_blk11 (t : Fin cfg0.N) (i : S100000x256.Idx) :
    i ∈ ((cfg0.win 11).blk t).view.set ↔ ∀ a : Fin 2, win0_11.index t a * S800x256.size a ≤ (i a).val ∧ (i a).val < win0_11.index t a * S800x256.size a + S800x256.size a := by
  show i ∈ ((View.whole main_v10_1).slice (win0_11.rect t)).set ↔ _
  rw [View.set_slice_whole, Rect.mem_set_unit]
  exact Iff.rfl

/-- The block that holds row `r` is block `r / 800`. -/
def blockOf (i : S100000x256.Idx) : Fin cfg0.N :=
  ⟨(i 0).val / 800, by rw [show cfg0.N = 125 from N_0]; have h : (i 0).val < 100000 := (i 0).isLt; omega⟩

theorem cover10 (i : S100000x256.Idx) : ∃ t : Fin cfg0.N, (cfg0.win 10).flush t = true ∧ i ∈ ((cfg0.win 10).blk t).view.set := by
  have hi0 : (i 0).val < 100000 := (i 0).isLt
  have hi1 : (i 1).val < 256 := (i 1).isLt
  obtain ⟨-, -, -, -, -, -, -, -, -, -, ⟨a0, a1⟩, -⟩ := idx_facts (blockOf i)
  have hv : (blockOf i).val = (i 0).val / 800 := rfl
  refine ⟨blockOf i, flush0_10 _, ?_⟩
  rw [mem_blk10]
  intro a
  match a with
  | ⟨0, _⟩ => show win0_10.index (blockOf i) (0 : Fin 2) * 800 ≤ (i 0).val ∧ (i 0).val < win0_10.index (blockOf i) (0 : Fin 2) * 800 + 800; omega
  | ⟨1, _⟩ => show win0_10.index (blockOf i) (1 : Fin 2) * 256 ≤ (i 1).val ∧ (i 1).val < win0_10.index (blockOf i) (1 : Fin 2) * 256 + 256; omega

theorem cover11 (i : S100000x256.Idx) : ∃ t : Fin cfg0.N, (cfg0.win 11).flush t = true ∧ i ∈ ((cfg0.win 11).blk t).view.set := by
  have hi0 : (i 0).val < 100000 := (i 0).isLt
  have hi1 : (i 1).val < 256 := (i 1).isLt
  obtain ⟨-, -, -, -, -, -, -, -, -, -, -, ⟨a0, a1⟩⟩ := idx_facts (blockOf i)
  have hv : (blockOf i).val = (i 0).val / 800 := rfl
  refine ⟨blockOf i, flush0_11 _, ?_⟩
  rw [mem_blk11]
  intro a
  match a with
  | ⟨0, _⟩ => show win0_11.index (blockOf i) (0 : Fin 2) * 800 ≤ (i 0).val ∧ (i 0).val < win0_11.index (blockOf i) (0 : Fin 2) * 800 + 800; omega
  | ⟨1, _⟩ => show win0_11.index (blockOf i) (1 : Fin 2) * 256 ≤ (i 1).val ∧ (i 1).val < win0_11.index (blockOf i) (1 : Fin 2) * 256 + 256; omega

/-! ## The result arrays after the run -/

theorem final_hidden (c : Dev nD) : (dats m 0 c).arrAt 10 cfg0.N = hiddenArr m c :=
  (dats m 0 c).arrAt_eq_of_cover 10 (hiddenArr m c) (fun t _ => flushed_hidden m c t) cover10

theorem final_cell (c : Dev nD) : (dats m 0 c).arrAt 11 cfg0.N = cellArr m c :=
  (dats m 0 c).arrAt_eq_of_cover 11 (cellArr m c) (fun t _ => flushed_cell m c t) cover11

/-- The program's run at the extended reals: it terminates without a fault, its first result is the hidden-state array,
    its second the cell-state array, and its fifteen arguments are unchanged. -/
theorem run : θ_run defs (onTc (τ := τ) (main (F := Ideal))) ⟨m, fun _ => 0, ρ⟩ (fun r => ∀ c : Dev nD,
      r.2.mem ((c.tc : Thread nD τ).loc main_v10_0) = hiddenArr m c
      ∧ r.2.mem ((c.tc : Thread nD τ).loc main_v10_1) = cellArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(post_of m r h c).1.trans (final_hidden m c), (post_of m r h c).2.1.trans (final_cell m c),
    (post_of m r h c).2.2⟩) (run_main m ρ)

end Cert.KernelIdeal.Whole

end
-- ==== Proof.RefValue.lean ====
/-
  The jnp reference of the tree-LSTM cell, read at an index at the extended reals: its two results are, at node `n` and
  feature `j`, the hidden state and the cell state of the child-sum cell (Spec) of the node whose data is row `n` of
  the argument arrays, under the weights as launched. The reference sums the children with a reduction from zero,
  multiplies by each weight matrix transposed, writes the logistic function out as 1 / (1 + e^(−t)), and computes the
  four forget gates at once over a [node, child, feature] array.
-/
import proofs.«126556_j63917703299457_2_alg».proof.Proof.Gen.ReferenceIdeal.Read
import proofs.«126556_j63917703299457_2_alg».proof.Proof.Spec
import proofs.«126556_j63917703299457_2_alg».proof.Proof.LibTiles
import Idealize.ShloMosaic.PureOps.Ideal.Laws
import Idealize.ShloMosaic.Lib.ValueIdx

set_option maxRecDepth 16384

noncomputable section

namespace Cert.ReferenceIdeal.RefValue

open Idealize.ShloMosaic Idealize.ShloMosaic.ValueIdx
open Cert.ReferenceIdeal Cert.ReferenceIdeal.Read Cert.TreeCell
open scoped BigOperators

variable (x0 : (⟨S100000x256, .f32⟩ : BufTy).Contents (Elt Ideal)) (x1 x2 : (⟨S100000x4x256, .f32⟩ : BufTy).Contents (Elt Ideal))
  (x3 : (⟨S256x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal))
  (x11 x12 x13 x14 : (⟨S256x256, .f32⟩ : BufTy).Contents (Elt Ideal))

/-- The weights as launched: matrix `[j, d]` is the argument at `(j, d)`. -/
def refWeights : Weights where
  Wi j d := x3 (ix2 j d)
  bi j := x4 (ix1 j)
  Wf j d := x5 (ix2 j d)
  bf j := x6 (ix1 j)
  Wo j d := x7 (ix2 j d)
  bo j := x8 (ix1 j)
  Wu j d := x9 (ix2 j d)
  bu j := x10 (ix1 j)
  Ui j e := x11 (ix2 j e)
  Uf j e := x12 (ix2 j e)
  Uo j e := x13 (ix2 j e)
  Uu j e := x14 (ix2 j e)

/-- Node `n` of the argument arrays. -/
def refNode (n : Fin 100000) : Node where
  x d := x0 (ix2 n d)
  h k e := x1 (ix3 n k e)
  c k e := x2 (ix3 n k e)

/-! ## The pieces -/

/-- The children's hidden states reduced from zero: the node's summed hidden state. -/
theorem hsumR (n : Fin 100000) (e : Fin 256) : val_main_v0 (F := Ideal) x1 (ix2 n e) = hsum (refNode x0 x1 x2 n) e := by
  rw [val_main_v0_apply, val_main_cst_apply, Ideal.ofBits_def, Ideal.ofBits_zero_f32, zero_add]
  exact Finset.sum_congr rfl fun k _ => congrArg x1 (funext fun a => Fin.ext (by match a with | ⟨0, _⟩ => rfl | ⟨1, _⟩ => rfl | ⟨2, _⟩ => rfl))

/-- The features times a weight matrix transposed (the input gate's). -/
theorem projX_2 (W : (⟨S256x256, .f32⟩ : BufTy).Contents (Elt Ideal)) (n : Fin 100000) (j : Fin 256) :
    val_main_v2 (F := Ideal) x0 W (ix2 n j) = ∑ d : Fin 256, x0 (ix2 n d) * W (ix2 j d) := by
  rw [val_main_v2_apply]
  refine Finset.sum_congr rfl fun k _ => ?_
  rw [val_main_v1_apply]
  exact congrArg₂ (· * ·) (congrArg x0 (funext fun a => Fin.ext (by match a with | ⟨0, _⟩ => rfl | ⟨1, _⟩ => rfl))) (congrArg W (funext fun a => Fin.ext (by match a with | ⟨0, _⟩ => rfl | ⟨1, _⟩ => rfl)))
/-- The same product at the output gate's stage. -/
theorem projX_16 (W : (⟨S256x256, .f32⟩ : BufTy).Contents (Elt Ideal)) (n : Fin 100000) (j : Fin 256) :
    val_main_v16 (F := Ideal) x0 W (ix2 n j) = ∑ d : Fin 256, x0 (ix2 n d) * W (ix2 j d) := by
  rw [val_main_v16_apply]
  refine Finset.sum_congr rfl fun k _ => ?_
  rw [val_main_v15_apply]
  exact congrArg₂ (· * ·) (congrArg x0 (funext fun a => Fin.ext (by match a with | ⟨0, _⟩ => rfl | ⟨1, _⟩ => rfl))) (congrArg W (funext fun a => Fin.ext (by match a with | ⟨0, _⟩ => rfl | ⟨1, _⟩ => rfl)))
/-- The same product at the candidate's stage. -/
theorem projX_30 (W : (⟨S256x256, .f32⟩ : BufTy).Contents (Elt Ideal)) (n : Fin 100000) (j : Fin 256) :
    val_main_v30 (F := Ideal) x0 W (ix2 n j) = ∑ d : Fin 256, x0 (ix2 n d) * W (ix2 j d) := by
  rw [val_main_v30_apply]
  refine Finset.sum_congr rfl fun k _ => ?_
  rw [val_main_v29_apply]
  exact congrArg₂ (· * ·) (congrArg x0 (funext fun a => Fin.ext (by match a with | ⟨0, _⟩ => rfl | ⟨1, _⟩ => rfl))) (congrArg W (funext fun a => Fin.ext (by match a with | ⟨0, _⟩ => rfl | ⟨1, _⟩ => rfl)))
/-- The same product at the forget gate's stage. -/
theorem projX_39 (W : (⟨S256x256, .f32⟩ : BufTy).Contents (Elt Ideal)) (n : Fin 100000) (j : Fin 256) :
    val_main_v39 (F := Ideal) x0 W (ix2 n j) = ∑ d : Fin 256, x0 (ix2 n d) * W (ix2 j d) := by
  rw [val_main_v39_apply]
  refine Finset.sum_congr rfl fun k _ => ?_
  rw [val_main_v38_apply]
  exact congrArg₂ (· * ·) (congrArg x0 (funext fun a => Fin.ext (by match a with | ⟨0, _⟩ => rfl | ⟨1, _⟩ => rfl))) (congrArg W (funext fun a => Fin.ext (by match a with | ⟨0, _⟩ => rfl | ⟨1, _⟩ => rfl)))
/-- The summed hidden state times a weight matrix transposed (the input gate's). -/
theorem projH_7 (W : (⟨S256x256, .f32⟩ : BufTy).Contents (Elt Ideal)) (n : Fin 100000) (j : Fin 256) :
    val_main_v7 (F := Ideal) x1 W (ix2 n j) = ∑ e : Fin 256, hsum (refNode x0 x1 x2 n) e * W (ix2 j e) := by
  rw [val_main_v7_apply]
  refine Finset.sum_congr rfl fun k _ => ?_
  rw [val_main_v6_apply]
  have hk : lidx_main_v7 (ix2 n j) k = ix2 n k := (funext fun a => Fin.ext (by match a with | ⟨0, _⟩ => rfl | ⟨1, _⟩ => rfl))
  rw [hk, hsumR x0 x1 x2 n k]
  exact congrArg (hsum (refNode x0 x1 x2 n) k * ·) (congrArg W (funext fun a => Fin.ext (by match a with | ⟨0, _⟩ => rfl | ⟨1, _⟩ => rfl)))
/-- The same product at the output gate's stage. -/
theorem projH_21 (W : (⟨S256x256, .f32⟩ : BufTy).Contents (Elt Ideal)) (n : Fin 100000) (j : Fin 256) :
    val_main_v21 (F := Ideal) x1 W (ix2 n j) = ∑ e : Fin 256, hsum (refNode x0 x1 x2 n) e * W (ix2 j e) := by
  rw [val_main_v21_apply]
  refine Finset.sum_congr rfl fun k _ => ?_
  rw [val_main_v20_apply]
  have hk : lidx_main_v21 (ix2 n j) k = ix2 n k := (funext fun a => Fin.ext (by match a with | ⟨0, _⟩ => rfl | ⟨1, _⟩ => rfl))
  rw [hk, hsumR x0 x1 x2 n k]
  exact congrArg (hsum (refNode x0 x1 x2 n) k * ·) (congrArg W (funext fun a => Fin.ext (by match a with | ⟨0, _⟩ => rfl | ⟨1, _⟩ => rfl)))
/-- The same product at the candidate's stage. -/
theorem projH_35 (W : (⟨S256x256, .f32⟩ : BufTy).Contents (Elt Ideal)) (n : Fin 100000) (j : Fin 256) :
    val_main_v35 (F := Ideal) x1 W (ix2 n j) = ∑ e : Fin 256, hsum (refNode x0 x1 x2 n) e * W (ix2 j e) := by
  rw [val_main_v35_apply]
  refine Finset.sum_congr rfl fun k _ => ?_
  rw [val_main_v34_apply]
  have hk : lidx_main_v35 (ix2 n j) k = ix2 n k := (funext fun a => Fin.ext (by match a with | ⟨0, _⟩ => rfl | ⟨1, _⟩ => rfl))
  rw [hk, hsumR x0 x1 x2 n k]
  exact congrArg (hsum (refNode x0 x1 x2 n) k * ·) (congrArg W (funext fun a => Fin.ext (by match a with | ⟨0, _⟩ => rfl | ⟨1, _⟩ => rfl)))

/-- One child's hidden state times the forget gate's hidden weights, contracted over the input feature. -/
theorem projK (W : (⟨S256x256, .f32⟩ : BufTy).Contents (Elt Ideal)) (n : Fin 100000) (k : Fin 4) (j : Fin 256) :
    val_main_v44 (F := Ideal) x1 W (ix3 n k j) = ∑ e : Fin 256, x1 (ix3 n k e) * W (ix2 j e) := by
  rw [val_main_v44_apply]
  exact Finset.sum_congr rfl fun e _ => congrArg₂ (· * ·) (congrArg x1 (funext fun a => Fin.ext (by match a with | ⟨0, _⟩ => rfl | ⟨1, _⟩ => rfl | ⟨2, _⟩ => rfl))) (congrArg W (funext fun a => Fin.ext (by match a with | ⟨0, _⟩ => rfl | ⟨1, _⟩ => rfl)))

theorem biasR_4 (b : (⟨S256, .f32⟩ : BufTy).Contents (Elt Ideal)) (n : Fin 100000) (j : Fin 256) : val_main_v4 (F := Ideal) b (ix2 n j) = b (ix1 j) := by
  rw [val_main_v4_apply, val_main_v3_apply]
  exact congrArg b (funext fun a => Fin.ext (by match a with | ⟨0, _⟩ => rfl))
theorem biasR_18 (b : (⟨S256, .f32⟩ : BufTy).Contents (Elt Ideal)) (n : Fin 100000) (j : Fin 256) : val_main_v18 (F := Ideal) b (ix2 n j) = b (ix1 j) := by
  rw [val_main_v18_apply, val_main_v17_apply]
  exact congrArg b (funext fun a => Fin.ext (by match a with | ⟨0, _⟩ => rfl))
theorem biasR_32 (b : (⟨S256, .f32⟩ : BufTy).Contents (Elt Ideal)) (n : Fin 100000) (j : Fin 256) : val_main_v32 (F := Ideal) b (ix2 n j) = b (ix1 j) := by
  rw [val_main_v32_apply, val_main_v31_apply]
  exact congrArg b (funext fun a => Fin.ext (by match a with | ⟨0, _⟩ => rfl))
theorem biasR_41 (b : (⟨S256, .f32⟩ : BufTy).Contents (Elt Ideal)) (n : Fin 100000) (j : Fin 256) : val_main_v41 (F := Ideal) b (ix2 n j) = b (ix1 j) := by
  rw [val_main_v41_apply, val_main_v40_apply]
  exact congrArg b (funext fun a => Fin.ext (by match a with | ⟨0, _⟩ => rfl))

theorem oneR_11 (i : S100000x256.Idx) : val_main_v11 (F := Ideal) i = (1 : EReal) := by
  rw [val_main_v11_apply, val_main_cst_0_apply, Ideal.ofBits_def, LibTiles.one_f32]
theorem oneR_13 (i : S100000x256.Idx) : val_main_v13 (F := Ideal) i = (1 : EReal) := by
  rw [val_main_v13_apply, val_main_cst_1_apply, Ideal.ofBits_def, LibTiles.one_f32]
theorem oneR_25 (i : S100000x256.Idx) : val_main_v25 (F := Ideal) i = (1 : EReal) := by
  rw [val_main_v25_apply, val_main_cst_2_apply, Ideal.ofBits_def, LibTiles.one_f32]
theorem oneR_27 (i : S100000x256.Idx) : val_main_v27 (F := Ideal) i = (1 : EReal) := by
  rw [val_main_v27_apply, val_main_cst_3_apply, Ideal.ofBits_def, LibTiles.one_f32]
theorem oneR_49 (i : S100000x4x256.Idx) : val_main_v49 (F := Ideal) i = (1 : EReal) := by
  rw [val_main_v49_apply, val_main_cst_4_apply, Ideal.ofBits_def, LibTiles.one_f32]
theorem oneR_51 (i : S100000x4x256.Idx) : val_main_v51 (F := Ideal) i = (1 : EReal) := by
  rw [val_main_v51_apply, val_main_cst_5_apply, Ideal.ofBits_def, LibTiles.one_f32]

/-! ## The gates, the cell state and the hidden state of node `n` -/

/-- The input gate. -/
theorem gateI (n : Fin 100000) (j : Fin 256) :
    val_main_v14 (F := Ideal) x0 x1 x3 x4 x11 (ix2 n j) = Ideal.logistic (lin (refWeights x3 x4 x5 x6 x7 x8 x9 x10 x11 x12 x13 x14).Wi (refWeights x3 x4 x5 x6 x7 x8 x9 x10 x11 x12 x13 x14).Ui (refWeights x3 x4 x5 x6 x7 x8 x9 x10 x11 x12 x13 x14).bi (refNode x0 x1 x2 n) j) := by
  rw [val_main_v14_apply, oneR_13, val_main_v12_apply, oneR_11, val_main_v10_apply, val_main_v9_apply, val_main_v8_apply,
    val_main_v5_apply, projX_2, biasR_4, projH_7 x0 x1 x2]
  rfl

/-- The output gate. -/
theorem gateO (n : Fin 100000) (j : Fin 256) :
    val_main_v28 (F := Ideal) x0 x1 x7 x8 x13 (ix2 n j) = Ideal.logistic (lin (refWeights x3 x4 x5 x6 x7 x8 x9 x10 x11 x12 x13 x14).Wo (refWeights x3 x4 x5 x6 x7 x8 x9 x10 x11 x12 x13 x14).Uo (refWeights x3 x4 x5 x6 x7 x8 x9 x10 x11 x12 x13 x14).bo (refNode x0 x1 x2 n) j) := by
  rw [val_main_v28_apply, oneR_27, val_main_v26_apply, oneR_25, val_main_v24_apply, val_main_v23_apply, val_main_v22_apply,
    val_main_v19_apply, projX_16, biasR_18, projH_21 x0 x1 x2]
  rfl

/-- The candidate. -/
theorem cand (n : Fin 100000) (j : Fin 256) :
    val_main_v37 (F := Ideal) x0 x1 x9 x10 x14 (ix2 n j) = Ideal.tanh (lin (refWeights x3 x4 x5 x6 x7 x8 x9 x10 x11 x12 x13 x14).Wu (refWeights x3 x4 x5 x6 x7 x8 x9 x10 x11 x12 x13 x14).Uu (refWeights x3 x4 x5 x6 x7 x8 x9 x10 x11 x12 x13 x14).bu (refNode x0 x1 x2 n) j) := by
  rw [val_main_v37_apply, val_main_v36_apply, val_main_v33_apply, projX_30, biasR_32, projH_35 x0 x1 x2]
  rfl

/-- Child `k`'s forget gate: the feature part is computed once per node and spread over the four children. -/
theorem gateF (n : Fin 100000) (k : Fin 4) (j : Fin 256) :
    val_main_v52 (F := Ideal) x0 x1 x5 x6 x12 (ix3 n k j) = forget (refWeights x3 x4 x5 x6 x7 x8 x9 x10 x11 x12 x13 x14) (refNode x0 x1 x2 n) k j := by
  have hs : idx_main_v43 (idx_main_v45 (ix3 n k j)) = ix2 n j := (funext fun a => Fin.ext (by match a with | ⟨0, _⟩ => rfl | ⟨1, _⟩ => rfl))
  rw [val_main_v52_apply, oneR_51, val_main_v50_apply, oneR_49, val_main_v48_apply, val_main_v47_apply, val_main_v46_apply,
    val_main_v45_apply, val_main_v43_apply, hs, val_main_v42_apply, projX_39, biasR_41, projK]
  rfl

/-- THE CELL STATE: input gate times candidate, plus the four children's forget gates times their cell states reduced
    from zero. -/
theorem cellR (n : Fin 100000) (j : Fin 256) :
    val_main_v56 (F := Ideal) x0 x1 x2 x3 x4 x5 x6 x9 x10 x11 x12 x14 (ix2 n j) = cell (refWeights x3 x4 x5 x6 x7 x8 x9 x10 x11 x12 x13 x14) (refNode x0 x1 x2 n) j := by
  rw [val_main_v56_apply, val_main_v53_apply, gateI x0 x1 x2 x3 x4 x5 x6 x7 x8 x9 x10 x11 x12 x13 x14,
    cand x0 x1 x2 x3 x4 x5 x6 x7 x8 x9 x10 x11 x12 x13 x14, val_main_v55_apply, val_main_cst_6_apply, Ideal.ofBits_def,
    Ideal.ofBits_zero_f32, zero_add]
  unfold cell
  simp only [Ideal.addf_def, Ideal.mulf_def]
  refine congrArg (_ + ·) (Finset.sum_congr rfl fun k _ => ?_)
  have hk : idx_main_v55 (ix2 n j) k = ix3 n k j := (funext fun a => Fin.ext (by match a with | ⟨0, _⟩ => rfl | ⟨1, _⟩ => rfl | ⟨2, _⟩ => rfl))
  rw [hk, val_main_v54_apply, gateF x0 x1 x2 x3 x4 x5 x6 x7 x8 x9 x10 x11 x12 x13 x14]
  rfl

/-- THE HIDDEN STATE: the output gate times the hyperbolic tangent of the cell state. -/
theorem hiddenR (n : Fin 100000) (j : Fin 256) :
    val_main_v58 (F := Ideal) x0 x1 x2 x3 x4 x5 x6 x7 x8 x9 x10 x11 x12 x13 x14 (ix2 n j) = hidden (refWeights x3 x4 x5 x6 x7 x8 x9 x10 x11 x12 x13 x14) (refNode x0 x1 x2 n) j := by
  rw [val_main_v58_apply, gateO x0 x1 x2 x3 x4 x5 x6 x7 x8 x9 x10 x11 x12 x13 x14, val_main_v57_apply,
    cellR x0 x1 x2 x3 x4 x5 x6 x7 x8 x9 x10 x11 x12 x13 x14]
  rfl

end Cert.ReferenceIdeal.RefValue

end
-- ==== Proof.lean ====
/-
  A child-sum tree-LSTM cell over 100000 nodes with four children each, computed by one pipelined region over 125
  blocks of 800 nodes (the child arrays flattened, the gates' weight matrices stacked and transposed beforehand), against
  the plain array program that sums the children, applies the eight weight matrices and forms the gates.
  Claimed and proved: each of the three programs runs to its end without a fault and leaves its fifteen arguments
  unchanged; the idealized region program is the printed one read at the extended reals (no rewrite was applied); and
  at the extended reals the two programs, started from memories that agree on the arguments, end with the same hidden
  state and the same cell state at every node and feature. Both are the cell of Spec at the launch arguments: on the
  region's side by the block-level reading of its body, the blocks' positions in their arrays and the tiling of the
  rows by the 125 blocks; on the array program's side operation by operation. The two differ only in how sums are
  grouped and in the layout of the weights, and sums of extended reals associate and commute, so no finiteness of the
  inputs is used.
-/
import proofs.«126556_j63917703299457_2_alg».proof.Defs
import proofs.«126556_j63917703299457_2_alg».proof.Proof.Gen.Kernel
import proofs.«126556_j63917703299457_2_alg».proof.Proof.Gen.KernelIdeal
import proofs.«126556_j63917703299457_2_alg».proof.Proof.Gen.ReferenceIdeal
import proofs.«126556_j63917703299457_2_alg».proof.Proof.Gen.ReferenceIdeal.Run
import proofs.«126556_j63917703299457_2_alg».proof.Proof.Gen.ReferenceIdeal.Read
import proofs.«126556_j63917703299457_2_alg».proof.Proof.Gen.Pre_finite_inputs
import proofs.«126556_j63917703299457_2_alg».proof.Proof.BitsFrame
import proofs.«126556_j63917703299457_2_alg».proof.Proof.IdealFrame
import proofs.«126556_j63917703299457_2_alg».proof.Proof.KernelValue
import proofs.«126556_j63917703299457_2_alg».proof.Proof.RefValue
import Idealize.ShloMosaic.Adequacy
import Idealize.ShloMosaic.Init

set_option maxRecDepth 16384

noncomputable section

namespace Cert.Proof

open Idealize.ShloMosaic Idealize.ShloMosaic.ValueIdx Idealize.SL.Sem

/-- The printed region program runs and leaves its arguments unchanged. -/
theorem frame_kernel : Cert.frame_Kernel := fun m ρ _ => Cert.Kernel.Hand.frame (F := Bits) m ρ

/-- So does its reading at the extended reals. -/
theorem frame_ideal : Cert.frame_KernelIdeal := fun m ρ _ => Cert.KernelIdeal.Hand.frame (F := Ideal) m ρ

/-- The array program runs and leaves its arguments unchanged: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- No operation of the region program was rewritten for the reading at the extended reals. -/
theorem preserves : Cert.preserves_Kernel_KernelIdeal := trivial

set_option maxHeartbeats 2000000 in
/-- At the extended reals, from memories agreeing on the fifteen arguments, the region program and the array program end
    with the same two arrays: the cell's hidden state and cell state at every node. -/
theorem algebraic : Cert.algebraic_KernelIdeal_ReferenceIdeal := by
  intro m ρ m' ρ' _ hagree
  refine ⟨fun c => Cert.KernelIdeal.Whole.hiddenArr m c, fun c => Cert.KernelIdeal.Whole.cellArr m c,
    Cert.KernelIdeal.Whole.run m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14⟩ := hagree c
    rw [a0, a1, a2, a3, a4, a5, a6, a7, a8, a9, a10, a11, a12, a13, a14, Cert.ReferenceIdeal.Read.val_main_v58_eq]
    funext i
    obtain ⟨n, j, rfl⟩ : ∃ (n : Fin 100000) (j : Fin 256), i = ix2 n j := ⟨i 0, i 1, eq_ix2 i⟩
    exact Cert.ReferenceIdeal.RefValue.hiddenR _ _ _ _ _ _ _ _ _ _ _ _ _ _ _ n j
  · obtain ⟨a0, a1, a2, a3, a4, a5, a6, a7, a8, a9, a10, a11, a12, a13, a14⟩ := hagree c
    rw [a0, a1, a2, a3, a4, a5, a6, a9, a10, a11, a12, a14, Cert.ReferenceIdeal.Read.val_main_v56_eq]
    funext i
    obtain ⟨n, j, rfl⟩ : ∃ (n : Fin 100000) (j : Fin 256), i = ix2 n j := ⟨i 0, i 1, eq_ix2 i⟩
    exact Cert.ReferenceIdeal.RefValue.cellR _ _ _ _ _ _ _ _ _ _ _ _ _ _ _ n j

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
